-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S40000x128 .f32) (main_arg1 : IVec S2x640000 32) (main_arg2 : FVec F S128x128 .f32) (main_arg3 : FVec F S128 .f32) (main_arg4 : FVec F S128 .f32) (main_arg5 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S40000 : Shape := ⟨1, ![40000]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S4000x128 : Shape := ⟨2, ![4000, 128]⟩
abbrev S680000x128 : Shape := ⟨2, ![680000, 128]⟩
abbrev S1x128 : Shape := ⟨2, ![1, 128]⟩

abbrev nBuf : Space → Nat
  | .hbm => 87
  | .vmem => 19
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S40000, .i32⟩
  | .hbm, ⟨7, _⟩ => ⟨S1x640000, .i32⟩
  | .hbm, ⟨8, _⟩ => ⟨S640000, .i32⟩
  | .hbm, ⟨9, _⟩ => ⟨S680000, .i32⟩
  | .hbm, ⟨10, _⟩ => ⟨S1x640000, .i32⟩
  | .hbm, ⟨11, _⟩ => ⟨S640000, .i32⟩
  | .hbm, ⟨12, _⟩ => ⟨S680000, .i32⟩
  | .hbm, ⟨13, _⟩ => ⟨S_, .f32⟩
  | .hbm, ⟨14, _⟩ => ⟨S680000, .f32⟩
  | .hbm, ⟨15, _⟩ => ⟨S_, .f32⟩
  | .hbm, ⟨16, _⟩ => ⟨S40000, .f32⟩
  | .hbm, ⟨17, _⟩ => ⟨S680000x1, .i32⟩
  | .hbm, ⟨18, _⟩ => ⟨S40000, .f32⟩
  | .hbm, ⟨19, _⟩ => ⟨S_, .f32⟩
  | .hbm, ⟨20, _⟩ => ⟨S40000, .f32⟩
  | .hbm, ⟨21, _⟩ => ⟨S40000, .i1⟩
  | .hbm, ⟨22, _⟩ => ⟨S_, .f32⟩
  | .hbm, ⟨23, _⟩ => ⟨S40000, .f32⟩
  | .hbm, ⟨24, _⟩ => ⟨S40000, .f32⟩
  | .hbm, ⟨25, _⟩ => ⟨S_, .f32⟩
  | .hbm, ⟨26, _⟩ => ⟨S_, .f32⟩
  | .hbm, ⟨27, _⟩ => ⟨S40000, .f32⟩
  | .hbm, ⟨28, _⟩ => ⟨S40000, .f32⟩
  | .hbm, ⟨29, _⟩ => ⟨S_, .i32⟩
  | .hbm, ⟨30, _⟩ => ⟨S680000, .i32⟩
  | .hbm, ⟨31, _⟩ => ⟨S680000, .i1⟩
  | .hbm, ⟨32, _⟩ => ⟨S_, .i32⟩
  | .hbm, ⟨33, _⟩ => ⟨S680000, .i32⟩
  | .hbm, ⟨34, _⟩ => ⟨S680000, .i32⟩
  | .hbm, ⟨35, _⟩ => ⟨S680000, .i32⟩
  | .hbm, ⟨36, _⟩ => ⟨S680000x1, .i32⟩
  | .hbm, ⟨37, _⟩ => ⟨S680000, .f32⟩
  | .hbm, ⟨38, _⟩ => ⟨S_, .i32⟩
  | .hbm, ⟨39, _⟩ => ⟨S680000, .i32⟩
  | .hbm, ⟨40, _⟩ => ⟨S680000, .i1⟩
  | .hbm, ⟨41, _⟩ => ⟨S_, .i32⟩
  | .hbm, ⟨42, _⟩ => ⟨S680000, .i32⟩
  | .hbm, ⟨43, _⟩ => ⟨S680000, .i32⟩
  | .hbm, ⟨44, _⟩ => ⟨S680000, .i32⟩
  | .hbm, ⟨45, _⟩ => ⟨S680000x1, .i32⟩
  | .hbm, ⟨46, _⟩ => ⟨S680000, .f32⟩
  | .hbm, ⟨47, _⟩ => ⟨S680000, .f32⟩
  | .hbm, ⟨48, _⟩ => ⟨S40000x128, .f32⟩
  | .hbm, ⟨49, _⟩ => ⟨S_, .i32⟩
  | .hbm, ⟨50, _⟩ => ⟨S680000, .i32⟩
  | .hbm, ⟨51, _⟩ => ⟨S680000, .i1⟩
  | .hbm, ⟨52, _⟩ => ⟨S_, .i32⟩
  | .hbm, ⟨53, _⟩ => ⟨S680000, .i32⟩
  | .hbm, ⟨54, _⟩ => ⟨S680000, .i32⟩
  | .hbm, ⟨55, _⟩ => ⟨S680000, .i32⟩
  | .hbm, ⟨56, _⟩ => ⟨S680000x1, .i32⟩
  | .hbm, ⟨57, _⟩ => ⟨S680000x128, .f32⟩
  | .hbm, ⟨58, _⟩ => ⟨S680000x1, .f32⟩
  | .hbm, ⟨59, _⟩ => ⟨S680000x128, .f32⟩
  | .hbm, ⟨60, _⟩ => ⟨S680000x128, .f32⟩
  | .hbm, ⟨61, _⟩ => ⟨S_, .f32⟩
  | .hbm, ⟨62, _⟩ => ⟨S40000x128, .f32⟩
  | .hbm, ⟨63, _⟩ => ⟨S680000x1, .i32⟩
  | .hbm, ⟨64, _⟩ => ⟨S40000x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S40000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S4000x128, .f32⟩
  | .local _ .vmem, ⟨18, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46_0 : Ref sig .tc := ⟨.hbm, 66, rfl⟩
abbrev main_v46_1 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S680000x1_S680000x128_0_1 : S680000x1.BroadcastsInDim S680000x128 (![0, 1] : Fin 2 → Fin S680000x128.rank)
  bcast_S_S40000x128 : S_.BroadcastsInDim S40000x128 (![] : Fin 0 → Fin S40000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S4000x128_S4000x128 : S4000x128.ShapeCasts S4000x128
  shapeCasts_S1x128_S1x128 : S1x128.ShapeCasts S1x128
  broadcasts_S1x128_S4000x128 : S1x128.Broadcasts S4000x128
  reduces_S4000x128_S128 : S4000x128.Reduces [0] S128
  shapeCasts_S1x128_S128 : S1x128.ShapeCasts S128
  bcast_S_S128 : S_.BroadcastsInDim S128 (![] : Fin 0 → Fin S128.rank)
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  dot_S4000x128_S128x128_S4000x128_1_0_0_1_n_n_wf : DotDims.WF S4000x128 S128x128 S4000x128 [1] [0] [0] [1] [] []
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S40000x128.size a
  hwx0_2 : ∀ i : grid0.Coords, EltTy.bits .f32 = 32 ∨ (Rect.block (s := S40000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S40000x128.size a
  hwx2_0 : ∀ i : grid2.Coords, EltTy.bits .f32 = 32 ∨ (Rect.block (s := S40000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S40000x128.size a
  hwx2_6 : ∀ i : grid2.Coords, EltTy.bits .f32 = 32 ∨ (Rect.block (s := S40000x128) S4000x128.size (cc2_transform_6 i) (hinb2_6 i)).WholeWords (EltTy.packing .f32)

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S40000 : Shape := ⟨1, ![40000]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S680000x128 : Shape := ⟨2, ![680000, 128]⟩
abbrev S1x128 : Shape := ⟨2, ![1, 128]⟩

abbrev nBuf : Space → Nat
  | .hbm => 115
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S40000, .i32⟩
  | .hbm, ⟨7, _⟩ => ⟨S1x640000, .i32⟩
  | .hbm, ⟨8, _⟩ => ⟨S640000, .i32⟩
  | .hbm, ⟨9, _⟩ => ⟨S680000, .i32⟩
  | .hbm, ⟨10, _⟩ => ⟨S1x640000, .i32⟩
  | .hbm, ⟨11, _⟩ => ⟨S640000, .i32⟩
  | .hbm, ⟨12, _⟩ => ⟨S680000, .i32⟩
  | .hbm, ⟨13, _⟩ => ⟨S_, .f32⟩
  | .hbm, ⟨14, _⟩ => ⟨S680000, .f32⟩
  | .hbm, ⟨15, _⟩ => ⟨S_, .f32⟩
  | .hbm, ⟨16, _⟩ => ⟨S40000, .f32⟩
  | .hbm, ⟨17, _⟩ => ⟨S680000x1, .i32⟩
  | .hbm, ⟨18, _⟩ => ⟨S40000, .f32⟩
  | .hbm, ⟨19, _⟩ => ⟨S_, .f32⟩
  | .hbm, ⟨20, _⟩ => ⟨S40000, .f32⟩
  | .hbm, ⟨21, _⟩ => ⟨S40000, .i1⟩
  | .hbm, ⟨22, _⟩ => ⟨S_, .f32⟩
  | .hbm, ⟨23, _⟩ => ⟨S40000, .f32⟩
  | .hbm, ⟨24, _⟩ => ⟨S40000, .f32⟩
  | .hbm, ⟨25, _⟩ => ⟨S_, .f32⟩
  | .hbm, ⟨26, _⟩ => ⟨S_, .f32⟩
  | .hbm, ⟨27, _⟩ => ⟨S40000, .f32⟩
  | .hbm, ⟨28, _⟩ => ⟨S40000, .f32⟩
  | .hbm, ⟨29, _⟩ => ⟨S_, .i32⟩
  | .hbm, ⟨30, _⟩ => ⟨S680000, .i32⟩
  | .hbm, ⟨31, _⟩ => ⟨S680000, .i1⟩
  | .hbm, ⟨32, _⟩ => ⟨S_, .i32⟩
  | .hbm, ⟨33, _⟩ => ⟨S680000, .i32⟩
  | .hbm, ⟨34, _⟩ => ⟨S680000, .i32⟩
  | .hbm, ⟨35, _⟩ => ⟨S680000, .i32⟩
  | .hbm, ⟨36, _⟩ => ⟨S680000x1, .i32⟩
  | .hbm, ⟨37, _⟩ => ⟨S680000, .f32⟩
  | .hbm, ⟨38, _⟩ => ⟨S_, .i32⟩
  | .hbm, ⟨39, _⟩ => ⟨S680000, .i32⟩
  | .hbm, ⟨40, _⟩ => ⟨S680000, .i1⟩
  | .hbm, ⟨41, _⟩ => ⟨S_, .i32⟩
  | .hbm, ⟨42, _⟩ => ⟨S680000, .i32⟩
  | .hbm, ⟨43, _⟩ => ⟨S680000, .i32⟩
  | .hbm, ⟨44, _⟩ => ⟨S680000, .i32⟩
  | .hbm, ⟨45, _⟩ => ⟨S680000x1, .i32⟩
  | .hbm, ⟨46, _⟩ => ⟨S680000, .f32⟩
  | .hbm, ⟨47, _⟩ => ⟨S680000, .f32⟩
  | .hbm, ⟨48, _⟩ => ⟨S40000x128, .f32⟩
  | .hbm, ⟨49, _⟩ => ⟨S_, .i32⟩
  | .hbm, ⟨50, _⟩ => ⟨S680000, .i32⟩
  | .hbm, ⟨51, _⟩ => ⟨S680000, .i1⟩
  | .hbm, ⟨52, _⟩ => ⟨S_, .i32⟩
  | .hbm, ⟨53, _⟩ => ⟨S680000, .i32⟩
  | .hbm, ⟨54, _⟩ => ⟨S680000, .i32⟩
  | .hbm, ⟨55, _⟩ => ⟨S680000, .i32⟩
  | .hbm, ⟨56, _⟩ => ⟨S680000x1, .i32⟩
  | .hbm, ⟨57, _⟩ => ⟨S680000x128, .f32⟩
  | .hbm, ⟨58, _⟩ => ⟨S680000x1, .f32⟩
  | .hbm, ⟨59, _⟩ => ⟨S680000x128, .f32⟩
  | .hbm, ⟨60, _⟩ => ⟨S680000x128, .f32⟩
  | .hbm, ⟨61, _⟩ => ⟨S_, .f32⟩
  | .hbm, ⟨62, _⟩ => ⟨S40000x128, .f32⟩
  | .hbm, ⟨63, _⟩ => ⟨S680000x1, .i32⟩
  | .hbm, ⟨64, _⟩ => ⟨S40000x128, .f32⟩
  | .hbm, ⟨65, _⟩ => ⟨S1x128, .f32⟩
  | .hbm, ⟨66, _⟩ => ⟨S40000x128, .f32⟩
  | .hbm, ⟨67, _⟩ => ⟨S40000x128, .f32⟩
  | .hbm, ⟨68, _⟩ => ⟨S_, .f32⟩
  | .hbm, ⟨69, _⟩ => ⟨S40000x128, .f32⟩
  | .hbm, ⟨70, _⟩ => ⟨S40000x128, .f32⟩
  | .hbm, ⟨71, _⟩ => ⟨S_, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S_, .i32⟩
  | .hbm, ⟨77, _⟩ => ⟨S_, .f32⟩
  | .hbm, ⟨78, _⟩ => ⟨S128, .f32⟩
  | .hbm, ⟨79, _⟩ => ⟨S1x128, .f32⟩
  | .hbm, ⟨80, _⟩ => ⟨S_, .f32⟩
  | .hbm, ⟨81, _⟩ => ⟨S1x128, .f32⟩
  | .hbm, ⟨82, _⟩ => ⟨S1x128, .f32⟩
  | .hbm, ⟨83, _⟩ => ⟨S40000x128, .f32⟩
  | .hbm, ⟨84, _⟩ => ⟨S40000x128, .f32⟩
  | .hbm, ⟨85, _⟩ => ⟨S40000x128, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S128, .f32⟩
  | .hbm, ⟨91, _⟩ => ⟨S128, .f32⟩
  | .hbm, ⟨92, _⟩ => ⟨S128, .f32⟩
  | .hbm, ⟨93, _⟩ => ⟨S_, .f32⟩
  | .hbm, ⟨94, _⟩ => ⟨S_, .i1⟩
  | .hbm, ⟨95, _⟩ => ⟨S_, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S1x128, .f32⟩
  | .hbm, ⟨100, _⟩ => ⟨S40000x128, .f32⟩
  | .hbm, ⟨101, _⟩ => ⟨S40000x128, .f32⟩
  | .hbm, ⟨102, _⟩ => ⟨S_, .f32⟩
  | .hbm, ⟨103, _⟩ => ⟨S128, .f32⟩
  | .hbm, ⟨104, _⟩ => ⟨S128, .f32⟩
  | .hbm, ⟨105, _⟩ => ⟨S128, .f32⟩
  | .hbm, ⟨106, _⟩ => ⟨S1x128, .f32⟩
  | .hbm, ⟨107, _⟩ => ⟨S40000x128, .f32⟩
  | .hbm, ⟨108, _⟩ => ⟨S40000x128, .f32⟩
  | .hbm, ⟨109, _⟩ => ⟨S1x128, .f32⟩
  | .hbm, ⟨110, _⟩ => ⟨S40000x128, .f32⟩
  | .hbm, ⟨111, _⟩ => ⟨S40000x128, .f32⟩
  | .hbm, ⟨112, _⟩ => ⟨S1x128, .f32⟩
  | .hbm, ⟨113, _⟩ => ⟨S40000x128, .f32⟩
  | .hbm, ⟨114, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_c_12 : Ref sig .tc := ⟨.hbm, 76, rfl⟩
abbrev main_call2_cst : Ref sig .tc := ⟨.hbm, 77, rfl⟩
abbrev main_call2_v0 : Ref sig .tc := ⟨.hbm, 78, rfl⟩
abbrev main_call2_v1 : Ref sig .tc := ⟨.hbm, 79, rfl⟩
abbrev main_call2_cst_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_cst_1 : Ref sig .tc := ⟨.hbm, 87, rfl⟩
abbrev main_call2_v8 : Ref sig .tc := ⟨.hbm, 88, rfl⟩
abbrev main_call2_cst_2 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_cst_3 : Ref sig .tc := ⟨.hbm, 93, rfl⟩
abbrev main_call2_v12 : Ref sig .tc := ⟨.hbm, 94, rfl⟩
abbrev main_call2_cst_4 : Ref sig .tc := ⟨.hbm, 95, rfl⟩
abbrev main_call2_call0_v0 : Ref sig .tc := ⟨.hbm, 96, rfl⟩
abbrev main_call2_call0_v1 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_13 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  bcast_S680000x1_S680000x128_0_1 : S680000x1.BroadcastsInDim S680000x128 (![0, 1] : Fin 2 → Fin S680000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  reducesTo_S40000x128_S128_d0 : S40000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  dot_S40000x128_S128x128_S40000x128_1_0_0_1_n_n_wf : DotDims.WF S40000x128 S128x128 S40000x128 [1] [0] [0] [1] [] []
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf

class Facts : Prop extends Facts₀ where

variable [Facts]
-- ==== Proof.KRun.lean ====
/-
  The kernel program's run with its result named.

  The program is three grid regions among stretches of host operations.  Every weakly fair execution
  from any memory with zero counters terminates without a fault, and every buffer that outlives the
  regions then holds the last boundary's contents: the fold of the host stretches and of the regions'
  write-backs over the launch memory.  In particular the result array holds that fold at its buffer,
  and the six argument arrays hold what they were launched with.
-/
import proofs.«138294_j5583457485036_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- Every execution ends with the result array at the last boundary's contents and the arguments as launched. -/
theorem run : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)
    (run_all m ρ)

end Cert.KernelIdeal.Run

end
-- ==== Proof.Graph.lean ====
/-
  The graph stage that both programs run on the host, written once.

  From the edge list `ei` (2 × 640000 node numbers: row 0 the sources, row 1 the targets), with a
  self-loop appended for every node: the in-degree of a node counts the edges that land on it; an edge's
  weight is `d[src]^(-1/2) · d[dst]^(-1/2)` (zero where the degree is zero); the aggregate of a 40000 × 128
  array `h` adds, into row `dst e`, row `src e` of `h` scaled by the edge's weight.  A negative node
  number is first wrapped by adding 40000, as array indexing does.

  Every function here is the composition of the host operations as the programs spell them; the shape
  facts those operations cite are gathered in one structure of propositions, so two programs that each
  supply their own proofs of them apply the same function.
-/
import Idealize.ShloMosaic.Lib.StableHlo

noncomputable section

namespace Cert.Graph

open Idealize.ShloMosaic

abbrev S40000x128 : Shape := ⟨2, ![40000, 128]⟩
abbrev S2x640000 : Shape := ⟨2, ![2, 640000]⟩
abbrev S40000 : Shape := ⟨1, ![40000]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S680000x128 : Shape := ⟨2, ![680000, 128]⟩

/-- The shape facts the stage's operations cite. -/
structure Facts : Prop where
  slices0 : S2x640000.Slices ![0, 0] S1x640000
  slices1 : S2x640000.Slices ![1, 0] S1x640000
  casts : S1x640000.ShapeCasts S640000
  cat : Shape.Concatenates [S640000, S40000] S680000 0
  bE : S_.BroadcastsInDim S680000 (![] : Fin 0 → Fin S680000.rank)
  bN : S_.BroadcastsInDim S40000 (![] : Fin 0 → Fin S40000.rank)
  bCol : S680000.BroadcastsInDim S680000x1 (![0] : Fin 1 → Fin S680000x1.rank)
  bWide : S680000x1.BroadcastsInDim S680000x128 (![0, 1] : Fin 2 → Fin S680000x128.rank)
  bNM : S_.BroadcastsInDim S40000x128 (![] : Fin 0 → Fin S40000x128.rank)
  scatterN : ScatterDims.WF S40000 S680000x1 S680000 [] [0] [0] 1
  gatherN : GatherDims.WF S40000 S680000x1 S680000 [] [0] [] [0] [] 1 ![1]
  gatherNM : GatherDims.WF S40000x128 S680000x1 S680000x128 [1] [0] [] [0] [] 1 ![1, 128]
  scatterNM : ScatterDims.WF S40000x128 S680000x1 S680000x128 [1] [0] [0] 1

variable (g : Facts)

/-- A scatter of one entry per edge into a vector over the nodes. -/
def scatN : ScatterDims S40000 S680000x1 S680000 where
  updateWindowDims := []
  insertedWindowDims := [0]
  scatterDimsToOperandDims := [0]
  indexVectorDim := 1
  wf := g.scatterN
/-- A gather of one entry per edge out of a vector over the nodes. -/
def gathN : GatherDims S40000 S680000x1 S680000 where
  offsetDims := []
  collapsedSliceDims := [0]
  operandBatchingDims := []
  startIndicesBatchingDims := []
  startIndexMap := [0]
  indexVectorDim := 1
  sliceSizes := ![1]
  wf := g.gatherN
/-- A gather of one row per edge out of a 40000 × 128 array. -/
def gathNM : GatherDims S40000x128 S680000x1 S680000x128 where
  offsetDims := [1]
  collapsedSliceDims := [0]
  operandBatchingDims := []
  startIndicesBatchingDims := []
  startIndexMap := [0]
  indexVectorDim := 1
  sliceSizes := ![1, 128]
  wf := g.gatherNM
/-- A scatter of one row per edge into a 40000 × 128 array. -/
def scatNM : ScatterDims S40000x128 S680000x1 S680000x128 where
  updateWindowDims := [1]
  insertedWindowDims := [0]
  scatterDimsToOperandDims := [0]
  indexVectorDim := 1
  wf := g.scatterNM

variable {F : FTy → Type} [FloatOps F]

/-- The edges' sources, then every node once (the self-loops). -/
def src (ei : IVec S2x640000 32) : IVec S680000 32 :=
  concatenate S680000 0
    [⟨S640000, shapeCast S640000 (extractStridedSlice S1x640000 ![0, 0] ei g.slices0) g.casts⟩,
     ⟨S40000, iotaInDim S40000 32 0⟩] g.cat

/-- The edges' targets, then every node once. -/
def dst (ei : IVec S2x640000 32) : IVec S680000 32 :=
  concatenate S680000 0
    [⟨S640000, shapeCast S640000 (extractStridedSlice S1x640000 ![1, 0] ei g.slices1) g.casts⟩,
     ⟨S40000, iotaInDim S40000 32 0⟩] g.cat

/-- A list of node numbers with the negative ones wrapped by adding 40000. -/
def wrap (ix : IVec S680000 32) : IVec S680000 32 :=
  select (cmpi .slt ix (broadcastInDim S680000 ![] g.bE (constantI S_ 32 0#32)))
    (addi ix (broadcastInDim S680000 ![] g.bE (constantI S_ 32 40000#32))) ix

/-- The in-degree: one is added at every edge's target. -/
def degree (ei : IVec S2x640000 32) : FVec F S40000 .f32 :=
  Host.scatterAdd (scatN g) (broadcastInDim S40000 ![] g.bN (constant S_ .f32 0x00000000#32))
    (broadcastInDim S680000x1 ![0] g.bCol (dst g ei))
    (broadcastInDim S680000 ![] g.bE (constant S_ .f32 0x3F800000#32))

/-- The degree to the power -1/2 where the degree is positive, zero elsewhere. -/
def invSqrt (ei : IVec S2x640000 32) : FVec F S40000 .f32 :=
  select (cmpf .ogt (degree (F := F) g ei) (broadcastInDim S40000 ![] g.bN (constant S_ .f32 0x00000000#32)))
    (Host.powf (degree (F := F) g ei) (broadcastInDim S40000 ![] g.bN (constant S_ .f32 0xBF000000#32)))
    (broadcastInDim S40000 ![] g.bN (constant S_ .f32 0x00000000#32))

/-- An edge's weight: the product of the two ends' inverse square roots. -/
def weight (ei : IVec S2x640000 32) : FVec F S680000 .f32 :=
  mulf (Host.gather (gathN g) (invSqrt (F := F) g ei) (broadcastInDim S680000x1 ![0] g.bCol (wrap g (src g ei))))
    (Host.gather (gathN g) (invSqrt (F := F) g ei) (broadcastInDim S680000x1 ![0] g.bCol (wrap g (dst g ei))))

/-- One row per edge: the source's row of `h` scaled by the edge's weight. -/
def messages (ei : IVec S2x640000 32) (h : FVec F S40000x128 .f32) : FVec F S680000x128 .f32 :=
  mulf (Host.gather (gathNM g) h (broadcastInDim S680000x1 ![0] g.bCol (wrap g (src g ei))))
    (broadcastInDim S680000x128 ![0, 1] g.bWide (broadcastInDim S680000x1 ![0] g.bCol (weight (F := F) g ei)))

/-- The aggregate: every edge's message added into its target's row. -/
def aggregate (ei : IVec S2x640000 32) (h : FVec F S40000x128 .f32) : FVec F S40000x128 .f32 :=
  Host.scatterAdd (scatNM g) (broadcastInDim S40000x128 ![] g.bNM (constant S_ .f32 0x00000000#32))
    (broadcastInDim S680000x1 ![0] g.bCol (dst g ei)) (messages (F := F) g ei h)

end Cert.Graph

end
-- ==== Proof.Spec.lean ====
/-
  What both programs compute, written once over the extended reals.

  A graph convolution followed by a batch normalisation over the node axis: with `A` the aggregated
  messages (a 40000 × 128 array), the activation is `v = max (A + b) 0`; per channel `j` the mean is
  `μ j = (Σ_r v r j) / 40000`; the result is `((v - μ) · rsqrt (var + ε)) · γ + β`.

  The two programs differ in the variance only.  One takes the mean of the squares less the square of the
  mean, clipped below at zero; the other takes the mean of the squared deviations from the mean.  For
  real-valued data these are the same number (`var_eq`); at an infinite entry they are not, so the data's
  finiteness is used.
-/
import Idealize.ShloMosaic.PureOps.Ideal
import Idealize.ShloMosaic.Lib.ValueIdx

noncomputable section

namespace Cert.Spec

open Idealize.ShloMosaic Idealize.ShloMosaic.ValueIdx
open scoped BigOperators

/-- An `a × b` array of extended reals. -/
abbrev Mat (a b : Nat) : Type := (⟨2, ![a, b]⟩ : Shape).Idx → EReal
/-- A vector of `a` extended reals. -/
abbrev Vct (a : Nat) : Type := (⟨1, ![a]⟩ : Shape).Idx → EReal

/-- The number of nodes as the float literal both programs divide by. -/
def nodes : EReal := Ideal.ofBits .f32 0x471C4000#32
/-- The literal added to the variance under the reciprocal square root. -/
def eps : EReal := Ideal.ofBits .f32 0x3727C5AC#32

/-- The literal `40000.0` denotes the real 40000. -/
theorem nodes_eq : nodes = ((40000 : ℝ) : EReal) := by
  unfold nodes
  simp [Ideal.ofBits, Ideal.ieee, -EReal.coe_mul]; norm_num

/-- The literal `+0.0` denotes zero. -/
theorem ofBits_zero : Ideal.ofBits .f32 0x00000000#32 = 0 := by
  simp [Ideal.ofBits, Ideal.ieee]

/-- The matrix product `x · w`: entry `(r, j)` is `Σ_k x r k · w k j`. -/
def mm (x : Mat 40000 128) (w : Mat 128 128) : Mat 40000 128 :=
  fun i => ∑ k : Fin 128, x (ix2 (i 0) k) * w (ix2 k (i 1))

theorem mm_apply (x : Mat 40000 128) (w : Mat 128 128) (r : Fin 40000) (j : Fin 128) :
    mm x w (ix2 r j) = ∑ k : Fin 128, x (ix2 r k) * w (ix2 k j) := rfl

/-- The activation: the aggregated messages plus the bias, clipped below at zero. -/
def act (A : Mat 40000 128) (b : Vct 128) : Mat 40000 128 :=
  fun i => max (A i + b (ix1 (i 1))) 0

theorem act_apply (A : Mat 40000 128) (b : Vct 128) (r : Fin 40000) (j : Fin 128) :
    act A b (ix2 r j) = max (A (ix2 r j) + b (ix1 j)) 0 := rfl

/-- The activation with the bias laid out as a 1 × 128 row. -/
def actRow (A : Mat 40000 128) (b : Mat 1 128) : Mat 40000 128 :=
  fun i => max (A i + b (ix2 0 (i 1))) 0

theorem actRow_apply (A : Mat 40000 128) (b : Mat 1 128) (r : Fin 40000) (j : Fin 128) :
    actRow A b (ix2 r j) = max (A (ix2 r j) + b (ix2 0 j)) 0 := rfl

/-- The normalised output with the bias, mean, variance, scale and shift each laid out as a 1 × 128 row. -/
def outRow (A : Mat 40000 128) (b μ var γ β : Mat 1 128) : Mat 40000 128 :=
  fun i => (max (A i + b (ix2 0 (i 1))) 0 - μ (ix2 0 (i 1))) * Ideal.rsqrt (var (ix2 0 (i 1)) + eps)
    * γ (ix2 0 (i 1)) + β (ix2 0 (i 1))

theorem outRow_apply (A : Mat 40000 128) (b μ var γ β : Mat 1 128) (r : Fin 40000) (j : Fin 128) :
    outRow A b μ var γ β (ix2 r j)
      = (max (A (ix2 r j) + b (ix2 0 j)) 0 - μ (ix2 0 j)) * Ideal.rsqrt (var (ix2 0 j) + eps) * γ (ix2 0 j) + β (ix2 0 j) := rfl

/-- The sum of column `j` over all the rows. -/
def colSum (v : Mat 40000 128) (j : Fin 128) : EReal := ∑ r : Fin 40000, v (ix2 r j)

/-- The sum of the squares of column `j`. -/
def colSumSq (v : Mat 40000 128) (j : Fin 128) : EReal := ∑ r : Fin 40000, v (ix2 r j) * v (ix2 r j)

/-- The mean of column `j`. -/
def mean (v : Mat 40000 128) (j : Fin 128) : EReal := Ideal.div (colSum v j) nodes

/-- The variance as the mean of the squares less the squared mean, clipped below at zero. -/
def varClipped (v : Mat 40000 128) (j : Fin 128) : EReal :=
  max (Ideal.div (colSumSq v j) nodes - mean v j * mean v j) 0

/-- The variance as the mean of the squared deviations from the mean. -/
def varCentred (v : Mat 40000 128) (j : Fin 128) : EReal :=
  Ideal.div (∑ r : Fin 40000, (v (ix2 r j) - mean v j) * (v (ix2 r j) - mean v j)) nodes

/-- The normalised output at `(r, j)` from the activation, a mean and a variance per channel. -/
def out (v : Mat 40000 128) (μ var : Fin 128 → EReal) (γ β : Vct 128) : Mat 40000 128 :=
  fun i => (v i - μ (i 1)) * Ideal.rsqrt (var (i 1) + eps) * γ (ix1 (i 1)) + β (ix1 (i 1))

theorem out_apply (v : Mat 40000 128) (μ var : Fin 128 → EReal) (γ β : Vct 128) (r : Fin 40000) (j : Fin 128) :
    out v μ var γ β (ix2 r j) = (v (ix2 r j) - μ j) * Ideal.rsqrt (var j + eps) * γ (ix1 j) + β (ix1 j) := rfl

/-- The coercion of a finite sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real-valued data the two variances are one number: `Σ (v - μ)² = Σ v² - N μ²`, a sum of squares,
    so the clip at zero does nothing. -/
theorem var_eq (v : Mat 40000 128) (j : Fin 128) (hv : ∀ r : Fin 40000, ∃ x : ℝ, v (ix2 r j) = (x : EReal)) :
    varClipped v j = varCentred v j := by
  choose f hf using hv
  have hN : (40000 : ℝ) ≠ 0 := by norm_num
  unfold varClipped varCentred mean colSum colSumSq
  simp only [hf, nodes_eq]
  rw [← coe_sum, Ideal.div_coe hN]
  simp only [← EReal.coe_mul, ← coe_sum, Ideal.div_coe hN, ← EReal.coe_sub]
  rw [← EReal.coe_zero, ← Monotone.map_max EReal.coe_strictMono.monotone, EReal.coe_eq_coe_iff]
  have hcard : (∑ _r : Fin 40000, (1 : ℝ)) = 40000 := by simp
  set μ : ℝ := (∑ r : Fin 40000, f r) * (1 / 40000) with hμ
  have hS : (∑ r : Fin 40000, f r) = 40000 * μ := by rw [hμ]; ring
  have key : (∑ r : Fin 40000, (f r - μ) * (f r - μ)) = (∑ r : Fin 40000, f r * f r) - 40000 * (μ * μ) := by
    have : ∀ r : Fin 40000, (f r - μ) * (f r - μ) = f r * f r - 2 * μ * f r + μ * μ * 1 := fun r => by ring
    simp only [this, Finset.sum_add_distrib, Finset.sum_sub_distrib, ← Finset.mul_sum, hcard, hS]
    ring
  rw [key]
  have hnn : 0 ≤ ((∑ r : Fin 40000, f r * f r) - 40000 * (μ * μ)) * (1 / 40000) := by
    rw [← key]
    exact mul_nonneg (Finset.sum_nonneg fun r _ => mul_self_nonneg _) (by norm_num)
  rw [max_eq_left]
  · ring
  · have : (∑ r : Fin 40000, f r * f r) * (1 / 40000) - μ * μ
        = ((∑ r : Fin 40000, f r * f r) - 40000 * (μ * μ)) * (1 / 40000) := by ring
    rw [this]; exact hnn

end Cert.Spec

end
-- ==== Proof.KTail.lean ====
/-
  The kernel program's last host stretch and what its normalising region then computes.

  Between the two last regions the host turns the rows of column sums `s` (of the activation) and `q`
  (of its squares) into the mean `s / 40000` and the variance `max (q / 40000 - mean · mean) 0`, and lays
  the bias, mean, variance, scale and shift out as 1 × 128 rows.  The normalising region reads those rows;
  its result at `(r, j)` is the specification's normalised output with the clipped variance.
-/
import Idealize.ShloMosaic.Lib.StableHlo
import Idealize.ShloMosaic.Lib.ValueLayout
import Idealize.ShloMosaic.PureOps.Ideal
import proofs.«138294_j5583457485036_2_alg».proof.Proof.Spec

noncomputable section

namespace Cert.KernelTail

open Idealize.ShloMosaic Idealize.ShloMosaic.ValueIdx

abbrev S40000x128 : Shape := ⟨2, ![40000, 128]⟩
abbrev S1x128 : Shape := ⟨2, ![1, 128]⟩
abbrev S128 : Shape := ⟨1, ![128]⟩
abbrev S_ : Shape := ⟨0, ![]⟩

/-- The shape facts the stretch's operations cite. -/
structure Facts : Prop where
  toRow : S128.ShapeCasts S1x128
  toVec : S1x128.ShapeCasts S128
  bc : S_.BroadcastsInDim S128 (![] : Fin 0 → Fin S128.rank)

variable (g : Facts) {F : FTy → Type} [FloatOps F]

/-- A vector of 128 channels laid out as a 1 × 128 row. -/
def row (u : FVec F S128 .f32) : FVec F S1x128 .f32 := shapeCast S1x128 u g.toRow

/-- The mean per channel from the row of column sums. -/
def meanOf (s : FVec F S1x128 .f32) : FVec F S128 .f32 :=
  Host.divf (shapeCast S128 s g.toVec) (broadcastInDim S128 ![] g.bc (constant S_ .f32 0x471C4000#32))

/-- The variance per channel from the rows of column sums of the values and of their squares. -/
def varOf (s q : FVec F S1x128 .f32) : FVec F S128 .f32 :=
  maximumf
    (subf (Host.divf (shapeCast S128 q g.toVec) (broadcastInDim S128 ![] g.bc (constant S_ .f32 0x471C4000#32)))
      (mulf (meanOf g s) (meanOf g s)))
    (broadcastInDim S128 ![] g.bc (constant S_ .f32 0x00000000#32))

/-- A scalar literal broadcast to the 128 channels reads the literal everywhere. -/
theorem bc_apply (b : BitVec 32) (j : Fin 128) :
    broadcastInDim (α := Ideal .f32) S128 ![] g.bc (constant (F := Ideal) S_ .f32 b) (ix1 j) = Ideal.ofBits .f32 b :=
  (broadcastInDim_apply (![] : Fin 0 → Fin S128.rank) g.bc (constant (F := Ideal) S_ .f32 b) (ix1 j) ix0 (fun a => a.elim0)).trans rfl

/-- The activation over the bias laid out as a row is the activation over the bias. -/
theorem actRow_row (A : Spec.Mat 40000 128) (b : FVec Ideal S128 .f32) :
    Spec.actRow A (row (F := Ideal) g b) = Spec.act A b := by
  funext i
  obtain ⟨r, j, rfl⟩ : ∃ (r : Fin 40000) (j : Fin 128), i = ix2 r j := ⟨i 0, i 1, eq_ix2 i⟩
  rw [Spec.actRow_apply, Spec.act_apply]
  unfold row
  rw [shapeCast_a_1a_apply]

/-- The mean read at a channel. -/
theorem meanOf_apply (v : Spec.Mat 40000 128) (s : FVec Ideal S1x128 .f32)
    (hs : s = fun i => Spec.colSum v (i 1)) (j : Fin 128) :
    meanOf (F := Ideal) g s (ix1 j) = Spec.mean v j := by
  unfold meanOf Host.divf Spec.mean Spec.nodes
  rw [bc_apply g, shapeCast_1a_a_apply, hs]
  rfl

/-- The variance read at a channel. -/
theorem varOf_apply (v : Spec.Mat 40000 128) (s q : FVec Ideal S1x128 .f32)
    (hs : s = fun i => Spec.colSum v (i 1)) (hq : q = fun i => Spec.colSumSq v (i 1)) (j : Fin 128) :
    varOf (F := Ideal) g s q (ix1 j) = Spec.varClipped v j := by
  unfold varOf maximumf subf mulf Host.divf Spec.varClipped
  rw [bc_apply g, bc_apply g, shapeCast_1a_a_apply, meanOf_apply g v s hs j, hq, Spec.ofBits_zero]
  rfl

/-- The normalising region's row-form output over this stretch's rows is the normalised output with the
    clipped variance. -/
theorem out_eq (A : Spec.Mat 40000 128) (b γ β : FVec Ideal S128 .f32) (s q : FVec Ideal S1x128 .f32)
    (hs : s = fun i => Spec.colSum (Spec.actRow A (row (F := Ideal) g b)) (i 1))
    (hq : q = fun i => Spec.colSumSq (Spec.actRow A (row (F := Ideal) g b)) (i 1)) :
    Spec.outRow A (row (F := Ideal) g b) (row (F := Ideal) g (meanOf (F := Ideal) g s))
        (row (F := Ideal) g (varOf (F := Ideal) g s q)) (row (F := Ideal) g γ) (row (F := Ideal) g β)
      = Spec.out (Spec.act A b) (Spec.mean (Spec.act A b)) (Spec.varClipped (Spec.act A b)) γ β := by
  rw [actRow_row] at hs hq
  funext i
  obtain ⟨r, j, rfl⟩ : ∃ (r : Fin 40000) (j : Fin 128), i = ix2 r j := ⟨i 0, i 1, eq_ix2 i⟩
  rw [Spec.outRow_apply, Spec.out_apply, Spec.act_apply]
  unfold row
  rw [shapeCast_a_1a_apply, shapeCast_a_1a_apply, shapeCast_a_1a_apply, shapeCast_a_1a_apply, shapeCast_a_1a_apply,
    meanOf_apply g _ s hs j, varOf_apply g _ s q hs hq j]

end Cert.KernelTail

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.Region0.lean ====
/-
  The first region's result: the product of the node features with the weight matrix.

  The region walks the 40000 rows in ten tiles of 4000.  At tile `t` the body holds rows
  `4000 t … 4000 t + 3999` of the features and the whole 128 × 128 weight matrix, multiplies them on the
  matrix unit into a zero accumulator, and stores the 4000 × 128 product, which is written back to rows
  `4000 t …` of the output.  Entry `(p, q)` of a tile's product depends on row `p` of the tile and column `q`
  of the weights only, so the ten write-backs together are the one matrix product `Spec.mm`, and every row
  is covered by tile `r / 4000`.
-/
import proofs.«138294_j5583457485036_2_alg».proof.Proof.Gen.KernelIdeal.Frame
import proofs.«138294_j5583457485036_2_alg».proof.Proof.Spec
import proofs.«138294_j5583457485036_2_alg».proof.Proof.LibPlainMatmul
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Region0

open Cert.KernelIdeal Cert.KernelIdeal.Gen

/-- The zero offset of a whole-buffer access. -/
theorem hz : (![0, 0] : Fin 2 → Nat) = fun _ => 0 := funext fun a => by fin_cases a <;> rfl

/-- The stored tile at `(p, q)`: the change of format on the way into the matrix unit is the identity on the
    ideal values, and the product into the zero accumulator is the sum over the contraction coordinate. -/
theorem pay_apply (x0 : Vec Ideal S4000x128 .f32) (x1 : Vec Ideal S128x128 .f32) (p : Fin 4000) (q : Fin 128) :
    Gen.k0_pay1 (F := Ideal) x0 x1 (ix2 p q) = ∑ k : Fin 128, x0 (ix2 p k) * x1 (ix2 k q) := by
  unfold Gen.k0_pay1
  exact PlainMatmul.matmul_zero_apply dot_S4000x128_S128x128_S4000x128_1_0_0_1_n_n rfl rfl rfl rfl rfl rfl none _ _ p q

/-- The stored tile at a tile index `j`, against an entry `i` of the whole product: it is enough that row `j 0`
    of the tile is row `i 0` of the features and column `j 1` of the loaded weights is column `i 1` of the
    weight matrix. -/
theorem tile_apply (X : Cert.Spec.Mat 40000 128) (W : Cert.Spec.Mat 128 128)
    (x0 : Vec Ideal S4000x128 .f32) (x1 : Vec Ideal S128x128 .f32) (j : S4000x128.Idx) (i : S40000x128.Idx)
    (h0 : ∀ k : Fin 128, x0 (ix2 (j 0) k) = X (ix2 (i 0) k))
    (h1 : ∀ k : Fin 128, x1 (ix2 k (j 1)) = W (ix2 k (i 1))) :
    Gen.k0_pay1 (F := Ideal) x0 x1 j = Cert.Spec.mm X W i := by
  obtain ⟨p, q, rfl⟩ : ∃ (p : Fin 4000) (q : Fin 128), j = ix2 p q := ⟨j 0, j 1, eq_ix2 j⟩
  rw [pay_apply]
  show _ = ∑ k : Fin 128, X (ix2 (i 0) k) * W (ix2 k (i 1))
  exact Finset.sum_congr rfl fun k _ => by rw [← h0 k, ← h1 k]

variable (V : (c : Dev nD) → (b : Ref sig .tc) → Buf (Elt Ideal) ((c : Thread nD τ).loc b))

/-- The printed index maps over the grid: the feature and output tiles sit at block row `t`, block column 0;
    the weights at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What tile `t` writes back is block `t` of the matrix product of the arrays the region finds. -/
theorem flushed_eq (c : Dev nD) (t : Fin cfg0.N) :
    (Gen.dat0 (F := Ideal) V c).flushed 2 t
      = ((cfg0.win 2).blk t).view.read (Elt Ideal) (Cert.Spec.mm (V c main_arg0) (V c main_arg2)) := by
  show (cfg0.win 2).cut (grid0.coords t) ((Gen.dat0 V c).after 2 t) = _
  rw [Gen.after0_2]
  unfold Gen.out0_2
  rw [View.canon_unit_zero hz]
  simp only [View.ld_unit_zero (S := S4000x128) hz, View.ld_unit_zero (S := S128x128) hz]
  obtain ⟨e0, e1, e2, e3, e4, e5⟩ := idx_facts t
  funext j
  show Gen.k0_pay1 (F := Ideal) (Gen.iblk0 V c 0 t) (Gen.iblk0 V c 1 t) j
    = Cert.Spec.mm (V c main_arg0) (V c main_arg2) (((cfg0.win 2).blk t).view.emb j)
  refine tile_apply (V c main_arg0) (V c main_arg2) (Gen.iblk0 V c 0 t) (Gen.iblk0 V c 1 t) j
    (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 128 + 1 * k.val = k.val; omega
  · show V c main_arg2 (((cfg0.win 1).blk t).view.emb (ix2 k (j 1))) = V c main_arg2 (ix2 k ((((cfg0.win 2).blk t).view.emb j) 1))
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output is in tile `t`'s block iff each coordinate is in the block's range on its axis. -/
theorem mem_blk (t : Fin cfg0.N) (i : S40000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v31).slice (win0_2.rect t)).set ↔ _
  rw [View.set_slice_whole, Rect.mem_set_unit]
  exact Iff.rfl

/-- Every entry of the output is written back by some tile: row `r` by tile `r / 4000`. -/
theorem cover (i : S40000x128.Idx) :
    ∃ t : Fin cfg0.N, (cfg0.win 2).flush t = true ∧ i ∈ ((cfg0.win 2).blk t).view.set := by
  have hN : grid0.N = 10 := Gen.N_0
  have hi0 : (i 0).val < 40000 := (i 0).isLt
  have hi1 : (i 1).val < 128 := (i 1).isLt
  refine ⟨⟨(i 0).val / 4000, by show (i 0).val / 4000 < grid0.N; omega⟩, Gen.flush0_2 _, ?_⟩
  rw [mem_blk]
  obtain ⟨-, -, -, -, e4, e5⟩ := idx_facts ⟨(i 0).val / 4000, by show (i 0).val / 4000 < grid0.N; omega⟩
  intro a
  match a with
  | ⟨0, _⟩ =>
    show win0_2.index _ (0 : Fin 2) * 4000 ≤ (i 0).val ∧ (i 0).val < win0_2.index _ (0 : Fin 2) * 4000 + 4000
    rw [e4]; show (i 0).val / 4000 * 4000 ≤ (i 0).val ∧ (i 0).val < (i 0).val / 4000 * 4000 + 4000; omega
  | ⟨1, _⟩ =>
    show win0_2.index _ (1 : Fin 2) * 128 ≤ (i 1).val ∧ (i 1).val < win0_2.index _ (1 : Fin 2) * 128 + 128
    rw [e5]; omega

/-- After the region the output array holds the matrix product of the features with the weights. -/
theorem final (c : Dev nD) :
    (Gen.dat0 (F := Ideal) V c).arrAt 2 cfg0.N = Cert.Spec.mm (V c main_arg0) (V c main_arg2) :=
  (Gen.dat0 (F := Ideal) V c).arrAt_eq_of_cover 2 (Cert.Spec.mm (V c main_arg0) (V c main_arg2))
    (fun t _ => flushed_eq V c t) cover

end Cert.KernelIdeal.Region0

end
-- ==== Proof.Region1.lean ====
/-
  The value of the accumulating region: the two 1 × 128 arrays it leaves.

  The region walks the 40000 × 128 array `A` in ten tiles of 4000 rows.  On each tile it forms the activation
  `v = max (A + b) 0` (the bias `b` a 1 × 128 row laid over every row) and adds, per channel `j`, the tile's column
  sum `Σ_p v p j` into the first accumulator and the column sum of squares `Σ_p (v p j)²` into the second; the
  first tile starts both from a row of zeros.  Both accumulators are written back once, after the last tile.

  Over the extended reals addition is associative and commutative with `0` neutral, so the ten tile sums added
  in turn to `0` are the sum over all 40000 rows: row `p` of tile `t` is row `4000 · t + p`, the rows below
  `4000 · (n + 1)` are those below `4000 · n` together with tile `n`, and the rows below `4000 · 10` are all of them.
  Hence the first array ends at `Spec.colSum v` and the second at `Spec.colSumSq v`, channel by channel.
-/
import proofs.«138294_j5583457485036_2_alg».proof.Proof.Gen.KernelIdeal.Frame
import proofs.«138294_j5583457485036_2_alg».proof.Proof.Spec
import Idealize.ShloMosaic.Lib.Pipeline.Value
import Idealize.ShloMosaic.Lib.Tactic
import Idealize.ShloMosaic.Lib.ValueLayout
import Idealize.ShloMosaic.PureOps.Ideal.Laws

noncomputable section

open Idealize.ShloMosaic Idealize.ShloMosaic.TcCoe Idealize.SL.Sem
open Idealize.ShloMosaic.ValueIdx
open Idealize.ShloMosaic.Pipeline (Dat)
open scoped BigOperators

namespace Cert.KernelIdeal.Region1

open Cert.KernelIdeal Cert.KernelIdeal.Gen

/-! ## What each control case leaves in the two accumulators -/

section Pieces

variable {F : FTy → Type} [FloatOps F]

theorem hz : (![0, 0] : Fin 2 → Nat) = fun _ => 0 := funext fun a => by fin_cases a <;> rfl

/-- Away from the first point the body leaves, in the first accumulator holding `xo2`, the payload of its one
    covering store: `xo2` plus the column sums of the activation of the block. -/
theorem out_B_2 (c : Dev nD) (i : grid1.Coords) (a1 : Memref sig .tc .vmem S4000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S4000x128 .f32) (x1 xo2 xo3 : Vec F S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero hz]
  simp only [View.readAt_eq_ld, h1.read_unread, h2.read_unread, h3.read_unread, View.ld_unit_zero (S := S4000x128) hz,
    View.ld_unit_zero (S := S1x128) hz]

/-- Likewise the second accumulator holding `xo3`: `xo3` plus the column sums of the squared activation. -/
theorem out_B_3 (c : Dev nD) (i : grid1.Coords) (a1 : Memref sig .tc .vmem S4000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S4000x128 .f32) (x1 xo2 xo3 : Vec F S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero hz]
  simp only [View.readAt_eq_ld, h1.read_unread, h2.read_unread, h4.read_unread, View.ld_unit_zero (S := S4000x128) hz,
    View.ld_unit_zero (S := S1x128) hz]

/-- At the first point the body stores the zero row first and reads it back: it leaves the payload over zeros. -/
theorem out_A_2 (c : Dev nD) (i : grid1.Coords) (a1 : Memref sig .tc .vmem S4000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S4000x128 .f32) (x1 : Vec F S1x128 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S4000x128) hz,
    View.ld_unit_zero (S := S1x128) hz]

theorem out_A_3 (c : Dev nD) (i : grid1.Coords) (a1 : Memref sig .tc .vmem S4000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S4000x128 .f32) (x1 : Vec F S1x128 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S4000x128) hz,
    View.ld_unit_zero (S := S1x128) hz]

end Pieces

/-! ## The payloads read at an index, over the extended reals -/

section Payloads

/-- The zero rows the first point stores. -/
theorem pay1_apply (j : Fin 128) : k1_pay1 (F := Ideal) (ix2 (0 : Fin 1) j) = 0 := Ideal.ofBits_zero_f32
theorem pay2_apply (j : Fin 128) : k1_pay2 (F := Ideal) (ix2 (0 : Fin 1) j) = 0 := Ideal.ofBits_zero_f32

/-- The activation of a block: the block plus the bias row laid over every row, clipped below at zero. -/
theorem pay3_apply (x0 : Vec Ideal S4000x128 .f32) (x1 : Vec Ideal S1x128 .f32) (p : Fin 4000) (j : Fin 128) :
    k1_pay3 x0 x1 (ix2 p j) = max (x0 (ix2 p j) + x1 (ix2 (0 : Fin 1) j)) 0 := by
  unfold k1_pay3
  show max (shapeCast S4000x128 x0 shapeCasts_S4000x128_S4000x128 (ix2 p j)
      + broadcastTo S4000x128 (shapeCast S1x128 x1 shapeCasts_S1x128_S1x128) broadcasts_S1x128_S4000x128 (ix2 p j))
      (Ideal.ofBits .f32 0x00000000#32) = _
  rw [shapeCast_self, shapeCast_self, broadcastTo_1b_ab_apply, Ideal.ofBits_zero_f32]

/-- A sum along the rows of a 4000 × 128 array, laid out as a 1 × 128 row, read at a channel. -/
theorem rowsum_apply (v : FVec Ideal S4000x128 .f32) (hacc : (0x00000000#32 : BitVec 32) = 0x00000000#32) (j : Fin 128) :
    shapeCast S1x128 (multiReduction .add [0] S128 v 0x00000000#32 reduces_S4000x128_S128 (.inl rfl) hacc)
      shapeCasts_S128_S1x128 (ix2 (0 : Fin 1) j) = ∑ p : Fin 4000, v (ix2 p j) := by
  refine (shapeCast_a_1a_apply _ shapeCasts_S128_S1x128 (0 : Fin 1) j).trans ?_
  refine (Ideal.multiReduction_add_single v 0x00000000#32 reduces_S4000x128_S128 (.inl rfl) hacc (ix1 j)).trans ?_
  refine Finset.sum_congr rfl fun p _ => congrArg v ?_
  funext a
  match a with
  | ⟨0, _⟩ => rfl
  | ⟨1, _⟩ => rfl

/-- The first accumulator's new contents: the old ones plus the column sums of the block's activation. -/
theorem pay4_apply (x0 : Vec Ideal S4000x128 .f32) (x1 acc : Vec Ideal S1x128 .f32) (j : Fin 128) :
    k1_pay4 x0 x1 acc (ix2 (0 : Fin 1) j)
      = acc (ix2 (0 : Fin 1) j) + ∑ p : Fin 4000, max (x0 (ix2 p j) + x1 (ix2 (0 : Fin 1) j)) 0 := by
  unfold k1_pay4
  show shapeCast S1x128 acc shapeCasts_S1x128_S1x128 (ix2 (0 : Fin 1) j)
      + shapeCast S1x128 (multiReduction .add [0] S128 (k1_pay3 x0 x1) 0x00000000#32 reduces_S4000x128_S128 (.inl rfl) rfl)
          shapeCasts_S128_S1x128 (ix2 (0 : Fin 1) j) = _
  rw [shapeCast_self]
  refine congrArg (acc (ix2 (0 : Fin 1) j) + ·) ?_
  refine (rowsum_apply (k1_pay3 x0 x1) rfl j).trans ?_
  exact Finset.sum_congr rfl fun p _ => pay3_apply x0 x1 p j

/-- The second accumulator's: the old ones plus the column sums of the squared activation. -/
theorem pay5_apply (x0 : Vec Ideal S4000x128 .f32) (x1 acc : Vec Ideal S1x128 .f32) (j : Fin 128) :
    k1_pay5 x0 x1 acc (ix2 (0 : Fin 1) j)
      = acc (ix2 (0 : Fin 1) j) + ∑ p : Fin 4000, max (x0 (ix2 p j) + x1 (ix2 (0 : Fin 1) j)) 0 * max (x0 (ix2 p j) + x1 (ix2 (0 : Fin 1) j)) 0 := by
  unfold k1_pay5
  show shapeCast S1x128 acc shapeCasts_S1x128_S1x128 (ix2 (0 : Fin 1) j)
      + shapeCast S1x128 (multiReduction .add [0] S128 (mulf (k1_pay3 x0 x1) (k1_pay3 x0 x1)) 0x00000000#32 reduces_S4000x128_S128 (.inl rfl) rfl)
          shapeCasts_S128_S1x128 (ix2 (0 : Fin 1) j) = _
  rw [shapeCast_self]
  refine congrArg (acc (ix2 (0 : Fin 1) j) + ·) ?_
  refine (rowsum_apply (mulf (k1_pay3 x0 x1) (k1_pay3 x0 x1)) rfl j).trans ?_
  refine Finset.sum_congr rfl fun p _ => ?_
  show k1_pay3 x0 x1 (ix2 p j) * k1_pay3 x0 x1 (ix2 p j) = _
  rw [pay3_apply]

end Payloads

/-! ## A sum over the 40000 rows, tile by tile -/

section Sums

variable {M : Type*} [AddCommMonoid M]

/-- Row `p` of tile `n`: row `4000 · n + p` of the whole array. -/
def rowOf (n : ℕ) (hn : n < 10) (p : Fin 4000) : Fin 40000 := ⟨4000 * n + p.val, by have := p.isLt; omega⟩

/-- The sum of `f` over the rows of the first `n` tiles. -/
def below (f : Fin 40000 → M) (n : ℕ) : M := ∑ r ∈ Finset.univ.filter (fun r : Fin 40000 => r.val < 4000 * n), f r

theorem below_zero (f : Fin 40000 → M) : below f 0 = 0 := by
  unfold below
  rw [Finset.filter_false_of_mem (fun r _ => by omega)]
  exact Finset.sum_empty

/-- One more tile: its 4000 rows are added. -/
theorem below_succ (f : Fin 40000 → M) (n : ℕ) (hn : n < 10) :
    below f (n + 1) = below f n + ∑ p : Fin 4000, f (rowOf n hn p) := by
  classical
  unfold below
  have hinj : Function.Injective (rowOf n hn) := fun p q h => Fin.ext (by
    have := congrArg Fin.val h
    simp only [rowOf] at this
    omega)
  have hmap : ∑ p : Fin 4000, f (rowOf n hn p) = ∑ r ∈ Finset.univ.map ⟨rowOf n hn, hinj⟩, f r :=
    (Finset.sum_map Finset.univ ⟨rowOf n hn, hinj⟩ f).symm
  rw [hmap, ← Finset.sum_union]
  · refine Finset.sum_congr ?_ (fun _ _ => rfl)
    ext r
    simp only [Finset.mem_filter, Finset.mem_univ, true_and, Finset.mem_union, Finset.mem_map, Function.Embedding.coeFn_mk]
    constructor
    · intro h
      by_cases h' : r.val < 4000 * n
      · exact Or.inl h'
      · exact Or.inr ⟨⟨r.val - 4000 * n, by omega⟩, Fin.ext (by simp only [rowOf]; omega)⟩
    · rintro (h | ⟨p, rfl⟩)
      · omega
      · have := p.isLt
        simp only [rowOf]
        omega
  · rw [Finset.disjoint_left]
    intro r hr hr'
    simp only [Finset.mem_filter, Finset.mem_univ, true_and] at hr
    simp only [Finset.mem_map, Finset.mem_univ, true_and, Function.Embedding.coeFn_mk] at hr'
    obtain ⟨p, rfl⟩ := hr'
    simp only [rowOf] at hr
    omega

/-- All ten tiles: every row. -/
theorem below_ten (f : Fin 40000 → M) : below f 10 = ∑ r : Fin 40000, f r := by
  unfold below
  rw [Finset.filter_true_of_mem (fun r _ => by have := r.isLt; omega)]

end Sums

/-! ## One point's step, over any block and accumulator -/

section Step

/-- The column sums of the activation of a block that is tile `n` of the array are those of tile `n` of the whole
    activation. -/
theorem tile_sum (A : Spec.Mat 40000 128) (b : Spec.Mat 1 128) (x0 : Vec Ideal S4000x128 .f32) (x1 : Vec Ideal S1x128 .f32)
    (n : ℕ) (hn : n < 10) (h0 : ∀ (p : Fin 4000) (j : Fin 128), x0 (ix2 p j) = A (ix2 (rowOf n hn p) j))
    (h1 : ∀ j : Fin 128, x1 (ix2 (0 : Fin 1) j) = b (ix2 (0 : Fin 1) j)) (j : Fin 128) :
    (∑ p : Fin 4000, max (x0 (ix2 p j) + x1 (ix2 (0 : Fin 1) j)) 0)
      = ∑ p : Fin 4000, Spec.actRow A b (ix2 (rowOf n hn p) j) :=
  Finset.sum_congr rfl fun p _ => by rw [h0, h1]; rfl

theorem tile_sumsq (A : Spec.Mat 40000 128) (b : Spec.Mat 1 128) (x0 : Vec Ideal S4000x128 .f32) (x1 : Vec Ideal S1x128 .f32)
    (n : ℕ) (hn : n < 10) (h0 : ∀ (p : Fin 4000) (j : Fin 128), x0 (ix2 p j) = A (ix2 (rowOf n hn p) j))
    (h1 : ∀ j : Fin 128, x1 (ix2 (0 : Fin 1) j) = b (ix2 (0 : Fin 1) j)) (j : Fin 128) :
    (∑ p : Fin 4000, max (x0 (ix2 p j) + x1 (ix2 (0 : Fin 1) j)) 0 * max (x0 (ix2 p j) + x1 (ix2 (0 : Fin 1) j)) 0)
      = ∑ p : Fin 4000, Spec.actRow A b (ix2 (rowOf n hn p) j) * Spec.actRow A b (ix2 (rowOf n hn p) j) :=
  Finset.sum_congr rfl fun p _ => by rw [h0, h1]; rfl

/-- An accumulator holding the sums over the first `n` tiles holds, after the body has run on tile `n`, the sums over
    the first `n + 1`. -/
theorem sum_step (A : Spec.Mat 40000 128) (b : Spec.Mat 1 128) (x0 : Vec Ideal S4000x128 .f32) (x1 acc : Vec Ideal S1x128 .f32)
    (n : ℕ) (hn : n < 10) (h0 : ∀ (p : Fin 4000) (j : Fin 128), x0 (ix2 p j) = A (ix2 (rowOf n hn p) j))
    (h1 : ∀ j : Fin 128, x1 (ix2 (0 : Fin 1) j) = b (ix2 (0 : Fin 1) j)) (j : Fin 128)
    (hacc : acc (ix2 (0 : Fin 1) j) = below (fun r => Spec.actRow A b (ix2 r j)) n) :
    k1_pay4 x0 x1 acc (ix2 (0 : Fin 1) j) = below (fun r => Spec.actRow A b (ix2 r j)) (n + 1) := by
  rw [pay4_apply, hacc, below_succ _ n hn, tile_sum A b x0 x1 n hn h0 h1 j]

theorem sumsq_step (A : Spec.Mat 40000 128) (b : Spec.Mat 1 128) (x0 : Vec Ideal S4000x128 .f32) (x1 acc : Vec Ideal S1x128 .f32)
    (n : ℕ) (hn : n < 10) (h0 : ∀ (p : Fin 4000) (j : Fin 128), x0 (ix2 p j) = A (ix2 (rowOf n hn p) j))
    (h1 : ∀ j : Fin 128, x1 (ix2 (0 : Fin 1) j) = b (ix2 (0 : Fin 1) j)) (j : Fin 128)
    (hacc : acc (ix2 (0 : Fin 1) j) = below (fun r => Spec.actRow A b (ix2 r j) * Spec.actRow A b (ix2 r j)) n) :
    k1_pay5 x0 x1 acc (ix2 (0 : Fin 1) j)
      = below (fun r => Spec.actRow A b (ix2 r j) * Spec.actRow A b (ix2 r j)) (n + 1) := by
  rw [pay5_apply, hacc, below_succ _ n hn, tile_sumsq A b x0 x1 n hn h0 h1 j]

end Step

/-! ## The blocks the body is run on, and the accumulators point by point -/

section Run

variable (V : (c : Dev nD) → (b : Ref sig .tc) → Buf (Elt Ideal) ((c : Thread nD τ).loc b)) (c : Dev nD)

/-- Where the first window's block sits at each point: block row the point, block column zero. -/
theorem idx_facts : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- The bias row's block is the whole row at every point. -/
theorem idx_facts_bias : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

/-- Entry `(p, j)` of the block at point `t` is entry `(4000 t + p, j)` of the array. -/
theorem iblk_0 (t : Fin cfg1.N) (ht : t.val < 10) (p : Fin 4000) (j : Fin 128) :
    (iblk1 V c 0 t : Vec Ideal S4000x128 .f32) (ix2 p j) = V c main_v44 (ix2 (rowOf t.val ht p) j) := by
  have hi := idx_facts t
  unfold iblk1
  rw [View.read_apply]
  show V c main_v44 _ = V c main_v44 _
  congr 1
  funext a
  apply Fin.ext
  match a with
  | ⟨0, _⟩ => show win1_0.index t 0 * 4000 + 1 * p.val = 4000 * t.val + p.val; rw [hi.1]; omega
  | ⟨1, _⟩ => show win1_0.index t 1 * 128 + 1 * j.val = j.val; rw [hi.2]; omega

/-- The bias block is the bias row. -/
theorem iblk_1 (t : Fin cfg1.N) (j : Fin 128) :
    (iblk1 V c 1 t : Vec Ideal S1x128 .f32) (ix2 (0 : Fin 1) j) = V c main_v45 (ix2 (0 : Fin 1) j) := by
  have hi := idx_facts_bias t
  unfold iblk1
  rw [View.read_apply]
  show V c main_v45 _ = V c main_v45 _
  congr 1
  funext a
  apply Fin.ext
  match a with
  | ⟨0, _⟩ => show win1_1.index t 0 * 1 + 1 * 0 = 0; rw [hi.1]
  | ⟨1, _⟩ => show win1_1.index t 1 * 128 + 1 * j.val = j.val; rw [hi.2]; omega

/-- The accumulators after the first point: the payloads over the zero rows. -/
theorem first_2 (t : Fin cfg1.N) (h0 : t.val % 10 = 0) :
    (outsAt1 V c t.val t.isLt).1 = k1_pay4 (iblk1 V c 0 t) (iblk1 V c 1 t) (k1_pay1 (F := Ideal)) :=
  (congrArg Prod.fst (outsAt1_A V c t h0)).trans
    (out_A_2 c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t))

theorem first_3 (t : Fin cfg1.N) (h0 : t.val % 10 = 0) :
    (outsAt1 V c t.val t.isLt).2 = k1_pay5 (iblk1 V c 0 t) (iblk1 V c 1 t) (k1_pay2 (F := Ideal)) :=
  (congrArg Prod.snd (outsAt1_A V c t h0)).trans
    (out_A_3 c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t))

/-- The accumulators after a later point: the payloads over what the point before left. -/
theorem later_2 (t : Fin cfg1.N) (h0 : ¬t.val % 10 = 0) :
    (outsAt1 V c t.val t.isLt).1 = k1_pay4 (iblk1 V c 0 t) (iblk1 V c 1 t)
      (outsAt1 V c (t.val - 1) (Nat.lt_of_le_of_lt (Nat.sub_le _ _) t.isLt)).1 :=
  (congrArg Prod.fst (outsAt1_B V c t h0)).trans
    (out_B_2 c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t)
      (outsAt1 V c (t.val - 1) (Nat.lt_of_le_of_lt (Nat.sub_le _ _) t.isLt)).1
      (outsAt1 V c (t.val - 1) (Nat.lt_of_le_of_lt (Nat.sub_le _ _) t.isLt)).2)

theorem later_3 (t : Fin cfg1.N) (h0 : ¬t.val % 10 = 0) :
    (outsAt1 V c t.val t.isLt).2 = k1_pay5 (iblk1 V c 0 t) (iblk1 V c 1 t)
      (outsAt1 V c (t.val - 1) (Nat.lt_of_le_of_lt (Nat.sub_le _ _) t.isLt)).2 :=
  (congrArg Prod.snd (outsAt1_B V c t h0)).trans
    (out_B_3 c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t)
      (outsAt1 V c (t.val - 1) (Nat.lt_of_le_of_lt (Nat.sub_le _ _) t.isLt)).1
      (outsAt1 V c (t.val - 1) (Nat.lt_of_le_of_lt (Nat.sub_le _ _) t.isLt)).2)

end Run

/-! ## The accumulators after each point -/

section Invariant

variable (V : (c : Dev nD) → (b : Ref sig .tc) → Buf (Elt Ideal) ((c : Thread nD τ).loc b)) (c : Dev nD)

/-- After point `n` the accumulators hold, at channel `j`, the sums over the rows of tiles `0 … n`: by induction on
    the point, the first point over the zero rows, every later one over what the point before left. -/
theorem outs_eq (n : ℕ) : ∀ (h : n < cfg1.N) (j : Fin 128),
    (outsAt1 V c n h).1 (ix2 (0 : Fin 1) j)
        = below (fun r => Spec.actRow (V c main_v44) (V c main_v45) (ix2 r j)) (n + 1)
    ∧ (outsAt1 V c n h).2 (ix2 (0 : Fin 1) j)
        = below (fun r => Spec.actRow (V c main_v44) (V c main_v45) (ix2 r j)
            * Spec.actRow (V c main_v44) (V c main_v45) (ix2 r j)) (n + 1) := by
  have hN : cfg1.N = 10 := N_1
  induction n with
  | zero =>
    intro h j
    have e2 : (outsAt1 V c 0 h).1 = _ := first_2 V c ⟨0, h⟩ rfl
    have e3 : (outsAt1 V c 0 h).2 = _ := first_3 V c ⟨0, h⟩ rfl
    refine ⟨(congrFun e2 (ix2 (0 : Fin 1) j)).trans ?_, (congrFun e3 (ix2 (0 : Fin 1) j)).trans ?_⟩
    · exact sum_step (V c main_v44) (V c main_v45) (iblk1 V c 0 ⟨0, h⟩) (iblk1 V c 1 ⟨0, h⟩) (k1_pay1 (F := Ideal)) 0
        (by decide) (fun p j => iblk_0 V c ⟨0, h⟩ (by show (0 : ℕ) < 10; decide) p j) (fun j => iblk_1 V c ⟨0, h⟩ j) j
        ((pay1_apply j).trans (below_zero _).symm)
    · exact sumsq_step (V c main_v44) (V c main_v45) (iblk1 V c 0 ⟨0, h⟩) (iblk1 V c 1 ⟨0, h⟩) (k1_pay2 (F := Ideal)) 0
        (by decide) (fun p j => iblk_0 V c ⟨0, h⟩ (by show (0 : ℕ) < 10; decide) p j) (fun j => iblk_1 V c ⟨0, h⟩ j) j
        ((pay2_apply j).trans (below_zero _).symm)
  | succ n ih =>
    intro h j
    have hn : n + 1 < 10 := by omega
    have hB : ¬(⟨n + 1, h⟩ : Fin cfg1.N).val % 10 = 0 := by show ¬(n + 1) % 10 = 0; omega
    have e2 : (outsAt1 V c (n + 1) h).1 = k1_pay4 (iblk1 V c 0 ⟨n + 1, h⟩) (iblk1 V c 1 ⟨n + 1, h⟩)
        (outsAt1 V c n (Nat.lt_of_succ_lt h)).1 := later_2 V c ⟨n + 1, h⟩ hB
    have e3 : (outsAt1 V c (n + 1) h).2 = k1_pay5 (iblk1 V c 0 ⟨n + 1, h⟩) (iblk1 V c 1 ⟨n + 1, h⟩)
        (outsAt1 V c n (Nat.lt_of_succ_lt h)).2 := later_3 V c ⟨n + 1, h⟩ hB
    refine ⟨(congrFun e2 (ix2 (0 : Fin 1) j)).trans ?_, (congrFun e3 (ix2 (0 : Fin 1) j)).trans ?_⟩
    · exact sum_step (V c main_v44) (V c main_v45) (iblk1 V c 0 ⟨n + 1, h⟩) (iblk1 V c 1 ⟨n + 1, h⟩)
        (outsAt1 V c n (Nat.lt_of_succ_lt h)).1 (n + 1) hn
        (fun p j => iblk_0 V c ⟨n + 1, h⟩ hn p j) (fun j => iblk_1 V c ⟨n + 1, h⟩ j) j
        (ih (Nat.lt_of_succ_lt h) j).1
    · exact sumsq_step (V c main_v44) (V c main_v45) (iblk1 V c 0 ⟨n + 1, h⟩) (iblk1 V c 1 ⟨n + 1, h⟩)
        (outsAt1 V c n (Nat.lt_of_succ_lt h)).2 (n + 1) hn
        (fun p j => iblk_0 V c ⟨n + 1, h⟩ hn p j) (fun j => iblk_1 V c ⟨n + 1, h⟩ j) j
        (ih (Nat.lt_of_succ_lt h) j).2

/-- A 1 × 128 index is `(0, j)`. -/
theorem idx_row (i : S1x128.Idx) : i = ix2 (0 : Fin 1) (i 1) := by
  funext a
  match a with
  | ⟨0, _⟩ => exact Fin.ext (by have := idx2_lt0 i; show (i 0).val = 0; omega)
  | ⟨1, _⟩ => rfl

/-- After the last point the first accumulator holds the column sums over all the rows, -/
theorem last_2 (t : Fin cfg1.N) (h9 : t.val = 9) :
    (outsAt1 V c t.val t.isLt).1
      = fun i => Spec.colSum (Spec.actRow (V c main_v44) (V c main_v45)) (i 1) := by
  funext i
  obtain ⟨j, rfl⟩ : ∃ j : Fin 128, i = ix2 (0 : Fin 1) j := ⟨i 1, idx_row i⟩
  refine ((outs_eq V c t.val t.isLt j).1).trans ?_
  rw [h9]
  exact below_ten _

/-- and the second the column sums of the squares. -/
theorem last_3 (t : Fin cfg1.N) (h9 : t.val = 9) :
    (outsAt1 V c t.val t.isLt).2
      = fun i => Spec.colSumSq (Spec.actRow (V c main_v44) (V c main_v45)) (i 1) := by
  funext i
  obtain ⟨j, rfl⟩ : ∃ j : Fin 128, i = ix2 (0 : Fin 1) j := ⟨i 1, idx_row i⟩
  refine ((outs_eq V c t.val t.isLt j).2).trans ?_
  rw [h9]
  exact below_ten _

end Invariant

/-! ## The arrays the region leaves -/

section Final

variable (V : (c : Dev nD) → (b : Ref sig .tc) → Buf (Elt Ideal) ((c : Thread nD τ).loc b)) (c : Dev nD)

/-- Each output's one block is the whole row, at every point. -/
theorem idx_facts_out2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx_facts_out3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

/-- The last point. -/
abbrev tLast : Fin cfg1.N := ⟨9, by rw [show cfg1.N = 10 from N_1]; decide⟩

/-- The one write-back of the first output, at the last point, writes the column sums: its block read through zero
    offsets is the whole row. -/
theorem flushed_2 (t : Fin cfg1.N) (hf : (cfg1.win 2).flush t = true) :
    (dat1 V c).flushed 2 t = ((cfg1.win 2).blk t).view.read (Elt Ideal)
      (fun i => Spec.colSum (Spec.actRow (V c main_v44) (V c main_v45)) (i 1)) := by
  have hN : cfg1.N = 10 := N_1
  have h9 : t.val = 9 := by have := (flush1_2 t).mp hf; have := t.isLt; omega
  have hi := idx_facts_out2 t
  show (cfg1.win 2).cut (grid1.coords t) ((dat1 V c).after 2 t) = _
  rw [after1_2, last_2 V c t h9]
  have hz' : (fun a => win1_2.index t a * main_v46_0.ty.shape.size a) = fun _ => 0 := funext fun a => by
    match a with
    | ⟨0, _⟩ => show win1_2.index t 0 * 1 = 0; rw [hi.1]
    | ⟨1, _⟩ => show win1_2.index t 1 * 128 = 0; rw [hi.2]
  exact (Memref.read_access_unit_zero (Elt Ideal) main_v46_0 hz' (fun a => by rw [congrFun hz' a]; simp) _).symm

theorem flushed_3 (t : Fin cfg1.N) (hf : (cfg1.win 3).flush t = true) :
    (dat1 V c).flushed 3 t = ((cfg1.win 3).blk t).view.read (Elt Ideal)
      (fun i => Spec.colSumSq (Spec.actRow (V c main_v44) (V c main_v45)) (i 1)) := by
  have hN : cfg1.N = 10 := N_1
  have h9 : t.val = 9 := by have := (flush1_3 t).mp hf; have := t.isLt; omega
  have hi := idx_facts_out3 t
  show (cfg1.win 3).cut (grid1.coords t) ((dat1 V c).after 3 t) = _
  rw [after1_3, last_3 V c t h9]
  have hz' : (fun a => win1_3.index t a * main_v46_1.ty.shape.size a) = fun _ => 0 := funext fun a => by
    match a with
    | ⟨0, _⟩ => show win1_3.index t 0 * 1 = 0; rw [hi.1]
    | ⟨1, _⟩ => show win1_3.index t 1 * 128 = 0; rw [hi.2]
  exact (Memref.read_access_unit_zero (Elt Ideal) main_v46_1 hz' (fun a => by rw [congrFun hz' a]; simp) _).symm

/-- So the first output array ends holding, per channel, the sum of the activation over all 40000 rows: the last
    point's block covers it. -/
theorem final_sum : (dat1 (F := Ideal) V c).arrAt 2 cfg1.N
    = fun i => Spec.colSum (Spec.actRow (V c main_v44) (V c main_v45)) (i 1) :=
  (dat1 V c).arrAt_eq_of_cover 2 _ (flushed_2 V c) fun i =>
    ⟨tLast, (flush1_2 tLast).mpr rfl, by
      have hi := idx_facts_out2 tLast
      show i ∈ ((View.whole main_v46_0).slice (win1_2.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win1_2.index tLast 0 * 1 ≤ (i 0 : Nat) ∧ (i 0 : Nat) < win1_2.index tLast 0 * 1 + 1
        rw [hi.1]; omega
      | ⟨1, _⟩ =>
        show win1_2.index tLast 1 * 128 ≤ (i 1 : Nat) ∧ (i 1 : Nat) < win1_2.index tLast 1 * 128 + 128
        rw [hi.2]; omega⟩

/-- And the second the sum of its squares. -/
theorem final_sumsq : (dat1 (F := Ideal) V c).arrAt 3 cfg1.N
    = fun i => Spec.colSumSq (Spec.actRow (V c main_v44) (V c main_v45)) (i 1) :=
  (dat1 V c).arrAt_eq_of_cover 3 _ (flushed_3 V c) fun i =>
    ⟨tLast, (flush1_3 tLast).mpr rfl, by
      have hi := idx_facts_out3 tLast
      show i ∈ ((View.whole main_v46_1).slice (win1_3.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win1_3.index tLast 0 * 1 ≤ (i 0 : Nat) ∧ (i 0 : Nat) < win1_3.index tLast 0 * 1 + 1
        rw [hi.1]; omega
      | ⟨1, _⟩ =>
        show win1_3.index tLast 1 * 128 ≤ (i 1 : Nat) ∧ (i 1 : Nat) < win1_3.index tLast 1 * 128 + 128
        rw [hi.2]; omega⟩

end Final

end Cert.KernelIdeal.Region1

end
-- ==== Proof.Region2.lean ====
/-
  The third region's result: the normalised activation.

  The region walks the 40000 rows in ten tiles of 4000.  At tile `t` the body holds rows
  `4000 t … 4000 t + 3999` of the aggregated messages and five 1 × 128 rows (bias, mean, variance, scale,
  shift), each whole at every tile.  Entry `(p, q)` of the stored tile is
  `(max (A p q + b q) 0 - μ q) · rsqrt (var q + ε) · γ q + β q`: pointwise in the tile's entry, with each row
  broadcast down the 4000 rows.  So the ten write-backs together are the one function `Spec.outRow` of the
  arrays, and every row is covered by tile `r / 4000`.
-/
import proofs.«138294_j5583457485036_2_alg».proof.Proof.Gen.KernelIdeal.Frame
import proofs.«138294_j5583457485036_2_alg».proof.Proof.Spec
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Region2

open Cert.KernelIdeal Cert.KernelIdeal.Gen

/-- The zero offset of a whole-buffer access. -/
theorem hz : (![0, 0] : Fin 2 → Nat) = fun _ => 0 := funext fun a => by fin_cases a <;> rfl

/-- The stored tile at `(p, q)`.  The casts to the same shape do nothing; a 1 × 128 row broadcast to
    4000 × 128 reads, at `(p, q)`, the row's entry `q`; the remaining operations are pointwise; the body's zero
    literal is the number zero. -/
theorem pay_apply (x0 : Vec Ideal S4000x128 .f32) (b var μ γ β : Vec Ideal S1x128 .f32) (p : Fin 4000) (q : Fin 128) :
    Gen.k2_pay1 (F := Ideal) x0 b var μ γ β (ix2 p q)
      = (max (x0 (ix2 p q) + b (ix2 (0 : Fin 1) q)) 0 - μ (ix2 (0 : Fin 1) q))
          * Ideal.rsqrt (var (ix2 (0 : Fin 1) q) + Cert.Spec.eps) * γ (ix2 (0 : Fin 1) q) + β (ix2 (0 : Fin 1) q) := by
  have hb : ∀ w : Vec Ideal S1x128 .f32,
      broadcastTo S4000x128 w broadcasts_S1x128_S4000x128 (ix2 p q) = w (ix2 (0 : Fin 1) q) :=
    fun w => broadcastTo_1b_ab_apply w _ p q
  unfold Gen.k2_pay1
  simp only [shapeCast_self]
  show (max (x0 (ix2 p q) + broadcastTo S4000x128 b broadcasts_S1x128_S4000x128 (ix2 p q)) (Ideal.ofBits .f32 0x00000000#32)
          - broadcastTo S4000x128 μ broadcasts_S1x128_S4000x128 (ix2 p q))
        * broadcastTo S4000x128 (fun i => Ideal.rsqrt (var i + Ideal.ofBits .f32 0x3727C5AC#32)) broadcasts_S1x128_S4000x128 (ix2 p q)
        * broadcastTo S4000x128 γ broadcasts_S1x128_S4000x128 (ix2 p q)
      + broadcastTo S4000x128 β broadcasts_S1x128_S4000x128 (ix2 p q) = _
  rw [hb b, hb μ, hb γ, hb β, hb, Cert.Spec.ofBits_zero]
  rfl

/-- The stored tile at a tile index `j`, against an entry `i` of the whole result: it is enough that the
    tile's entry `j` is the array's entry `i` and that each loaded row at column `j 1` is the row array at
    column `i 1`. -/
theorem tile_apply (A : Cert.Spec.Mat 40000 128) (B M Vr G Bt : Cert.Spec.Mat 1 128)
    (x0 : Vec Ideal S4000x128 .f32) (b var μ γ β : Vec Ideal S1x128 .f32) (j : S4000x128.Idx) (i : S40000x128.Idx)
    (h0 : x0 j = A i)
    (h1 : b (ix2 (0 : Fin 1) (j 1)) = B (ix2 (0 : Fin 1) (i 1)))
    (h2 : μ (ix2 (0 : Fin 1) (j 1)) = M (ix2 (0 : Fin 1) (i 1)))
    (h3 : var (ix2 (0 : Fin 1) (j 1)) = Vr (ix2 (0 : Fin 1) (i 1)))
    (h4 : γ (ix2 (0 : Fin 1) (j 1)) = G (ix2 (0 : Fin 1) (i 1)))
    (h5 : β (ix2 (0 : Fin 1) (j 1)) = Bt (ix2 (0 : Fin 1) (i 1))) :
    Gen.k2_pay1 (F := Ideal) x0 b var μ γ β j = Cert.Spec.outRow A B M Vr G Bt i := by
  obtain ⟨p, q, rfl⟩ : ∃ (p : Fin 4000) (q : Fin 128), j = ix2 p q := ⟨j 0, j 1, eq_ix2 j⟩
  rw [pay_apply]
  show _ = (max (A i + B (ix2 (0 : Fin 1) (i 1))) 0 - M (ix2 (0 : Fin 1) (i 1)))
      * Ideal.rsqrt (Vr (ix2 (0 : Fin 1) (i 1)) + Cert.Spec.eps) * G (ix2 (0 : Fin 1) (i 1)) + Bt (ix2 (0 : Fin 1) (i 1))
  rw [← h0, ← h1, ← h2, ← h3, ← h4, ← h5]

variable (V : (c : Dev nD) → (b : Ref sig .tc) → Buf (Elt Ideal) ((c : Thread nD τ).loc b))

/-- The printed index maps over the grid: the message and output tiles sit at block row `t`, block column 0. -/
theorem idx_facts : ∀ t : Fin cfg2.N, win2_0.index t (0 : Fin 2) = t.val ∧ win2_0.index t (1 : Fin 2) = 0
    ∧ win2_6.index t (0 : Fin 2) = t.val ∧ win2_6.index t (1 : Fin 2) = 0 :=
  (by decide +kernel : ∀ t : Fin grid2.N, _)

/-- Each of the five rows sits at block (0, 0) at every tile. -/
theorem idx_row : ∀ t : Fin cfg2.N, win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The message tile at a tile index `j` is the message array at the entry `j` lands on: the input and
    output tiles move together. -/
theorem read_tile (c : Dev nD) (t : Fin cfg2.N) (j : S4000x128.Idx) :
    Gen.iblk2 V c 0 t j = V c main_v44 (((cfg2.win 6).blk t).view.emb j) := by
  obtain ⟨e0, e1, e12, e13⟩ := idx_facts t
  show V c main_v44 (((cfg2.win 0).blk t).view.emb j) = V c main_v44 (((cfg2.win 6).blk t).view.emb j)
  refine congrArg (V c main_v44) (funext fun a => Fin.ext ?_)
  match a with
  | ⟨0, _⟩ => show win2_0.index t (0 : Fin 2) * 4000 + 1 * (j 0).val = win2_6.index t (0 : Fin 2) * 4000 + 1 * (j 0).val; omega
  | ⟨1, _⟩ => show win2_0.index t (1 : Fin 2) * 128 + 1 * (j 1).val = win2_6.index t (1 : Fin 2) * 128 + 1 * (j 1).val; omega

/-- The bias row as tile `t` holds it, at the column of a tile index `j`, is the row array at the column of
    the entry `j` lands on: the row's window is whole at every tile. -/
theorem read_bias (c : Dev nD) (t : Fin cfg2.N) (j : S4000x128.Idx) :
    Gen.iblk2 V c 1 t (ix2 (0 : Fin 1) (j 1)) = V c main_v57 (ix2 (0 : Fin 1) ((((cfg2.win 6).blk t).view.emb j) 1)) := by
  obtain ⟨-, -, -, e13⟩ := idx_facts t
  have e0 : win2_1.index t (0 : Fin 2) = 0 := (idx_row t).1
  have e1 : win2_1.index t (1 : Fin 2) = 0 := (idx_row t).2.1
  show V c main_v57 (((cfg2.win 1).blk t).view.emb (ix2 (0 : Fin 1) (j 1))) = V c main_v57 (ix2 (0 : Fin 1) ((((cfg2.win 6).blk t).view.emb j) 1))
  refine congrArg (V c main_v57) (funext fun a => Fin.ext ?_)
  match a with
  | ⟨0, _⟩ => show win2_1.index t (0 : Fin 2) * 1 + 1 * 0 = 0; omega
  | ⟨1, _⟩ => show win2_1.index t (1 : Fin 2) * 128 + 1 * (j 1).val = win2_6.index t (1 : Fin 2) * 128 + 1 * (j 1).val; omega

/-- The mean row as tile `t` holds it, at the column of a tile index `j`, is the row array at the column of
    the entry `j` lands on: the row's window is whole at every tile. -/
theorem read_mean (c : Dev nD) (t : Fin cfg2.N) (j : S4000x128.Idx) :
    Gen.iblk2 V c 2 t (ix2 (0 : Fin 1) (j 1)) = V c main_v58 (ix2 (0 : Fin 1) ((((cfg2.win 6).blk t).view.emb j) 1)) := by
  obtain ⟨-, -, -, e13⟩ := idx_facts t
  have e0 : win2_2.index t (0 : Fin 2) = 0 := (idx_row t).2.2.1
  have e1 : win2_2.index t (1 : Fin 2) = 0 := (idx_row t).2.2.2.1
  show V c main_v58 (((cfg2.win 2).blk t).view.emb (ix2 (0 : Fin 1) (j 1))) = V c main_v58 (ix2 (0 : Fin 1) ((((cfg2.win 6).blk t).view.emb j) 1))
  refine congrArg (V c main_v58) (funext fun a => Fin.ext ?_)
  match a with
  | ⟨0, _⟩ => show win2_2.index t (0 : Fin 2) * 1 + 1 * 0 = 0; omega
  | ⟨1, _⟩ => show win2_2.index t (1 : Fin 2) * 128 + 1 * (j 1).val = win2_6.index t (1 : Fin 2) * 128 + 1 * (j 1).val; omega

/-- The variance row as tile `t` holds it, at the column of a tile index `j`, is the row array at the column of
    the entry `j` lands on: the row's window is whole at every tile. -/
theorem read_var (c : Dev nD) (t : Fin cfg2.N) (j : S4000x128.Idx) :
    Gen.iblk2 V c 3 t (ix2 (0 : Fin 1) (j 1)) = V c main_v59 (ix2 (0 : Fin 1) ((((cfg2.win 6).blk t).view.emb j) 1)) := by
  obtain ⟨-, -, -, e13⟩ := idx_facts t
  have e0 : win2_3.index t (0 : Fin 2) = 0 := (idx_row t).2.2.2.2.1
  have e1 : win2_3.index t (1 : Fin 2) = 0 := (idx_row t).2.2.2.2.2.1
  show V c main_v59 (((cfg2.win 3).blk t).view.emb (ix2 (0 : Fin 1) (j 1))) = V c main_v59 (ix2 (0 : Fin 1) ((((cfg2.win 6).blk t).view.emb j) 1))
  refine congrArg (V c main_v59) (funext fun a => Fin.ext ?_)
  match a with
  | ⟨0, _⟩ => show win2_3.index t (0 : Fin 2) * 1 + 1 * 0 = 0; omega
  | ⟨1, _⟩ => show win2_3.index t (1 : Fin 2) * 128 + 1 * (j 1).val = win2_6.index t (1 : Fin 2) * 128 + 1 * (j 1).val; omega

/-- The scale row as tile `t` holds it, at the column of a tile index `j`, is the row array at the column of
    the entry `j` lands on: the row's window is whole at every tile. -/
theorem read_scale (c : Dev nD) (t : Fin cfg2.N) (j : S4000x128.Idx) :
    Gen.iblk2 V c 4 t (ix2 (0 : Fin 1) (j 1)) = V c main_v60 (ix2 (0 : Fin 1) ((((cfg2.win 6).blk t).view.emb j) 1)) := by
  obtain ⟨-, -, -, e13⟩ := idx_facts t
  have e0 : win2_4.index t (0 : Fin 2) = 0 := (idx_row t).2.2.2.2.2.2.1
  have e1 : win2_4.index t (1 : Fin 2) = 0 := (idx_row t).2.2.2.2.2.2.2.1
  show V c main_v60 (((cfg2.win 4).blk t).view.emb (ix2 (0 : Fin 1) (j 1))) = V c main_v60 (ix2 (0 : Fin 1) ((((cfg2.win 6).blk t).view.emb j) 1))
  refine congrArg (V c main_v60) (funext fun a => Fin.ext ?_)
  match a with
  | ⟨0, _⟩ => show win2_4.index t (0 : Fin 2) * 1 + 1 * 0 = 0; omega
  | ⟨1, _⟩ => show win2_4.index t (1 : Fin 2) * 128 + 1 * (j 1).val = win2_6.index t (1 : Fin 2) * 128 + 1 * (j 1).val; omega

/-- The shift row as tile `t` holds it, at the column of a tile index `j`, is the row array at the column of
    the entry `j` lands on: the row's window is whole at every tile. -/
theorem read_shift (c : Dev nD) (t : Fin cfg2.N) (j : S4000x128.Idx) :
    Gen.iblk2 V c 5 t (ix2 (0 : Fin 1) (j 1)) = V c main_v61 (ix2 (0 : Fin 1) ((((cfg2.win 6).blk t).view.emb j) 1)) := by
  obtain ⟨-, -, -, e13⟩ := idx_facts t
  have e0 : win2_5.index t (0 : Fin 2) = 0 := (idx_row t).2.2.2.2.2.2.2.2.1
  have e1 : win2_5.index t (1 : Fin 2) = 0 := (idx_row t).2.2.2.2.2.2.2.2.2
  show V c main_v61 (((cfg2.win 5).blk t).view.emb (ix2 (0 : Fin 1) (j 1))) = V c main_v61 (ix2 (0 : Fin 1) ((((cfg2.win 6).blk t).view.emb j) 1))
  refine congrArg (V c main_v61) (funext fun a => Fin.ext ?_)
  match a with
  | ⟨0, _⟩ => show win2_5.index t (0 : Fin 2) * 1 + 1 * 0 = 0; omega
  | ⟨1, _⟩ => show win2_5.index t (1 : Fin 2) * 128 + 1 * (j 1).val = win2_6.index t (1 : Fin 2) * 128 + 1 * (j 1).val; omega

/-- What tile `t` writes back is block `t` of the normalised activation of the arrays the region finds. -/
theorem flushed_eq (c : Dev nD) (t : Fin cfg2.N) :
    (Gen.dat2 (F := Ideal) V c).flushed 6 t
      = ((cfg2.win 6).blk t).view.read (Elt Ideal)
          (Cert.Spec.outRow (V c main_v44) (V c main_v57) (V c main_v58) (V c main_v59) (V c main_v60) (V c main_v61)) := by
  show (cfg2.win 6).cut (grid2.coords t) ((Gen.dat2 V c).after 6 t) = _
  rw [Gen.after2_6]
  unfold Gen.out2_6
  rw [View.canon_unit_zero hz]
  simp only [View.ld_unit_zero (S := S4000x128) hz, View.ld_unit_zero (S := S1x128) hz]
  funext j
  show Gen.k2_pay1 (F := Ideal) (Gen.iblk2 V c 0 t) (Gen.iblk2 V c 1 t) (Gen.iblk2 V c 3 t) (Gen.iblk2 V c 2 t)
      (Gen.iblk2 V c 4 t) (Gen.iblk2 V c 5 t) j
    = Cert.Spec.outRow (V c main_v44) (V c main_v57) (V c main_v58) (V c main_v59) (V c main_v60) (V c main_v61)
        (((cfg2.win 6).blk t).view.emb j)
  exact tile_apply (V c main_v44) (V c main_v57) (V c main_v58) (V c main_v59) (V c main_v60) (V c main_v61)
    (Gen.iblk2 V c 0 t) (Gen.iblk2 V c 1 t) (Gen.iblk2 V c 3 t) (Gen.iblk2 V c 2 t) (Gen.iblk2 V c 4 t) (Gen.iblk2 V c 5 t) j
    (((cfg2.win 6).blk t).view.emb j) (read_tile V c t j) (read_bias V c t j) (read_mean V c t j) (read_var V c t j)
    (read_scale V c t j) (read_shift V c t j)

/-- An index of the output is in tile `t`'s block iff each coordinate is in the block's range on its axis. -/
theorem mem_blk (t : Fin cfg2.N) (i : S40000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v62).slice (win2_6.rect t)).set ↔ _
  rw [View.set_slice_whole, Rect.mem_set_unit]
  exact Iff.rfl

/-- Every entry of the output is written back by some tile: row `r` by tile `r / 4000`. -/
theorem cover (i : S40000x128.Idx) :
    ∃ t : Fin cfg2.N, (cfg2.win 6).flush t = true ∧ i ∈ ((cfg2.win 6).blk t).view.set := by
  have hN : grid2.N = 10 := Gen.N_2
  have hi0 : (i 0).val < 40000 := (i 0).isLt
  have hi1 : (i 1).val < 128 := (i 1).isLt
  refine ⟨⟨(i 0).val / 4000, by show (i 0).val / 4000 < grid2.N; omega⟩, Gen.flush2_6 _, ?_⟩
  rw [mem_blk]
  obtain ⟨-, -, e12, e13⟩ := idx_facts ⟨(i 0).val / 4000, by show (i 0).val / 4000 < grid2.N; omega⟩
  intro a
  match a with
  | ⟨0, _⟩ =>
    show win2_6.index _ (0 : Fin 2) * 4000 ≤ (i 0).val ∧ (i 0).val < win2_6.index _ (0 : Fin 2) * 4000 + 4000
    rw [e12]; show (i 0).val / 4000 * 4000 ≤ (i 0).val ∧ (i 0).val < (i 0).val / 4000 * 4000 + 4000; omega
  | ⟨1, _⟩ =>
    show win2_6.index _ (1 : Fin 2) * 128 ≤ (i 1).val ∧ (i 1).val < win2_6.index _ (1 : Fin 2) * 128 + 128
    rw [e13]; omega

/-- After the region the output array holds the normalised activation of the arrays the region found. -/
theorem final (c : Dev nD) :
    (Gen.dat2 (F := Ideal) V c).arrAt 6 cfg2.N
      = Cert.Spec.outRow (V c main_v44) (V c main_v57) (V c main_v58) (V c main_v59) (V c main_v60) (V c main_v61) :=
  (Gen.dat2 (F := Ideal) V c).arrAt_eq_of_cover 6
    (Cert.Spec.outRow (V c main_v44) (V c main_v57) (V c main_v58) (V c main_v59) (V c main_v60) (V c main_v61))
    (fun t _ => flushed_eq V c t) cover

end Cert.KernelIdeal.Region2

end
-- ==== Proof.KHost.lean ====
/-
  The kernel program's buffers at each boundary between its host stretches and its three grid regions,
  read back as functions of the six argument arrays.

  First stretches: the edges' sources and targets with the self-loops, the in-degree, its inverse square
  root, the edge weights.  First region: the product `x · W`.  Second stretch: the aggregate of the
  product over the graph, and the bias as a row.  Second region: the column sums of the activation and of
  its squares.  Third stretch: the mean, the clipped variance, and the per-channel data as rows.  Third
  region: the normalised output.
-/
import proofs.«138294_j5583457485036_2_alg».proof.Proof.Gen.KernelIdeal.Frame
import proofs.«138294_j5583457485036_2_alg».proof.Proof.Graph
import proofs.«138294_j5583457485036_2_alg».proof.Proof.KTail
import proofs.«138294_j5583457485036_2_alg».proof.Proof.Region0
import proofs.«138294_j5583457485036_2_alg».proof.Proof.Region1
import proofs.«138294_j5583457485036_2_alg».proof.Proof.Region2
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The kernel program's own proofs of the graph stage's shape facts. -/
theorem gfacts : Cert.Graph.Facts where
  slices0 := Facts₀.slices_S2x640000_S1x640000_0_0
  slices1 := Facts₀.slices_S2x640000_S1x640000_1_0
  casts := Facts₀.shapeCasts_S1x640000_S640000
  cat := Facts₀.concatenates_S640000_S40000_S680000_d0
  bE := Facts₀.bcast_S_S680000
  bN := Facts₀.bcast_S_S40000
  bCol := Facts₀.bcast_S680000_S680000x1_0
  bWide := Facts₀.bcast_S680000x1_S680000x128_0_1
  bNM := Facts₀.bcast_S_S40000x128
  scatterN := Facts₀.scatter_S40000_S680000x1_S680000_n_0_0_1_wf
  gatherN := Facts₀.gather_S40000_S680000x1_S680000_n_0_n_n_0_1_1_wf
  gatherNM := Facts₀.gather_S40000x128_S680000x1_S680000x128_1_0_n_n_0_1_1128_wf
  scatterNM := Facts₀.scatter_S40000x128_S680000x1_S680000x128_1_0_0_1_wf

/-- The kernel program's own proofs of the last stretch's shape facts. -/
theorem tfacts : Cert.KernelTail.Facts where
  toRow := Facts₀.shapeCasts_S128_S1x128
  toVec := Facts₀.shapeCasts_S1x128_S128
  bc := Facts₀.bcast_S_S128

/-! ## The first stretch: sources, targets, degree -/

theorem W1_v3 (c : Dev nD) : W1 m ρ c (Proc.devRef .tc main_v3) = Cert.Graph.src gfacts (m ((c : Thread nD τ).loc main_arg1)) := by
  dsimp only [W1]; after_results; rfl

theorem W1_v6 (c : Dev nD) : W1 m ρ c (Proc.devRef .tc main_v6) = Cert.Graph.dst gfacts (m ((c : Thread nD τ).loc main_arg1)) := by
  dsimp only [W1]; after_results; rfl

theorem W1_v12 (c : Dev nD) : W1 m ρ c (Proc.devRef .tc main_v12)
    = cmpf .ogt (Cert.Graph.degree (F := F) gfacts (m ((c : Thread nD τ).loc main_arg1)))
        (broadcastInDim S40000 ![] Facts₀.bcast_S_S40000 (constant S_ .f32 0x00000000#32)) := by
  dsimp only [W1]; after_results; rfl

theorem W1_v14 (c : Dev nD) : W1 m ρ c (Proc.devRef .tc main_v14)
    = Host.powf (Cert.Graph.degree (F := F) gfacts (m ((c : Thread nD τ).loc main_arg1)))
        (broadcastInDim S40000 ![] Facts₀.bcast_S_S40000 (constant S_ .f32 0xBF000000#32)) := by
  dsimp only [W1]; after_results; rfl

theorem W1_cst_3 (c : Dev nD) : W1 m ρ c (Proc.devRef .tc main_cst_3) = constant (F := F) S_ .f32 0x00000000#32 := by
  dsimp only [W1]; after_results

/-! ## The outlined selection: the inverse square root of the degree -/

theorem W2_v3 (c : Dev nD) : W2 m ρ c (Proc.devRef .tc main_v3) = Cert.Graph.src gfacts (m ((c : Thread nD τ).loc main_arg1)) := by
  dsimp only [W2]; after_results; exact W1_v3 m ρ c

theorem W2_v6 (c : Dev nD) : W2 m ρ c (Proc.devRef .tc main_v6) = Cert.Graph.dst gfacts (m ((c : Thread nD τ).loc main_arg1)) := by
  dsimp only [W2]; after_results; exact W1_v6 m ρ c

/-- The outlined selection over any contents: where the first operand is set the second, else the third broadcast. -/
theorem sel_v15 (V : Valuation τ sig (Elt F)) : after hostOps0_1 V (Proc.devRef .tc main_v15)
    = select (V (Proc.devRef .tc main_v12)) (V (Proc.devRef .tc main_v14))
        (broadcastInDim S40000 ![] Facts₀.bcast_S_S40000 (V (Proc.devRef .tc main_cst_3))) := by
  after_results; rfl

theorem W2_v15 (c : Dev nD) : W2 m ρ c (Proc.devRef .tc main_v15) = Cert.Graph.invSqrt (F := F) gfacts (m ((c : Thread nD τ).loc main_arg1)) := by
  refine (sel_v15 (W1 m ρ c)).trans ?_
  rw [W1_v12, W1_v14, W1_cst_3]
  rfl

/-! ## The third stretch: the edge weights -/

theorem W3_v3 (c : Dev nD) : W3 m ρ c (Proc.devRef .tc main_v3) = Cert.Graph.src gfacts (m ((c : Thread nD τ).loc main_arg1)) := by
  dsimp only [W3]; after_results; exact W2_v3 m ρ c

theorem W3_v6 (c : Dev nD) : W3 m ρ c (Proc.devRef .tc main_v6) = Cert.Graph.dst gfacts (m ((c : Thread nD τ).loc main_arg1)) := by
  dsimp only [W3]; after_results; exact W2_v6 m ρ c

set_option maxHeartbeats 4000000 in
/-- The third stretch's product over any contents: the two gathers of the inverse square roots at the wrapped
    sources and targets, multiplied. -/
theorem wt_v30 (V : Valuation τ sig (Elt F)) : after hostOps0_2 V (Proc.devRef .tc main_v30)
    = mulf (Host.gather (Cert.Graph.gathN gfacts) (V (Proc.devRef .tc main_v15))
          (broadcastInDim S680000x1 ![0] Facts₀.bcast_S680000_S680000x1_0 (Cert.Graph.wrap gfacts (V (Proc.devRef .tc main_v3)))))
        (Host.gather (Cert.Graph.gathN gfacts) (V (Proc.devRef .tc main_v15))
          (broadcastInDim S680000x1 ![0] Facts₀.bcast_S680000_S680000x1_0 (Cert.Graph.wrap gfacts (V (Proc.devRef .tc main_v6))))) := by
  after_results; rfl

theorem W3_v30 (c : Dev nD) : W3 m ρ c (Proc.devRef .tc main_v30) = Cert.Graph.weight (F := F) gfacts (m ((c : Thread nD τ).loc main_arg1)) := by
  refine (wt_v30 (W2 m ρ c)).trans ?_
  rw [W2_v15, W2_v3, W2_v6]
  rfl

/-! ## The arguments at the first region's entry -/

set_option maxHeartbeats 2000000 in
theorem W3_arg0 (c : Dev nD) : W3 m ρ c (Proc.devRef .tc main_arg0) = m ((c : Thread nD τ).loc main_arg0) := by
  dsimp only [W3, W2, W1]; after_results
set_option maxHeartbeats 2000000 in
theorem W3_arg2 (c : Dev nD) : W3 m ρ c (Proc.devRef .tc main_arg2) = m ((c : Thread nD τ).loc main_arg2) := by
  dsimp only [W3, W2, W1]; after_results
set_option maxHeartbeats 2000000 in
theorem W3_arg3 (c : Dev nD) : W3 m ρ c (Proc.devRef .tc main_arg3) = m ((c : Thread nD τ).loc main_arg3) := by
  dsimp only [W3, W2, W1]; after_results
set_option maxHeartbeats 2000000 in
theorem W3_arg4 (c : Dev nD) : W3 m ρ c (Proc.devRef .tc main_arg4) = m ((c : Thread nD τ).loc main_arg4) := by
  dsimp only [W3, W2, W1]; after_results
set_option maxHeartbeats 2000000 in
theorem W3_arg5 (c : Dev nD) : W3 m ρ c (Proc.devRef .tc main_arg5) = m ((c : Thread nD τ).loc main_arg5) := by
  dsimp only [W3, W2, W1]; after_results

/-! ## The first region: the product, and what the next stretch reads beside it -/

theorem W4_v3 (c : Dev nD) : W4 m ρ c (Proc.devRef .tc main_v3) = Cert.Graph.src gfacts (m ((c : Thread nD τ).loc main_arg1)) :=
  (W4_of_ne m ρ c main_v3 (by decide)).trans (W3_v3 m ρ c)
theorem W4_v6 (c : Dev nD) : W4 m ρ c (Proc.devRef .tc main_v6) = Cert.Graph.dst gfacts (m ((c : Thread nD τ).loc main_arg1)) :=
  (W4_of_ne m ρ c main_v6 (by decide)).trans (W3_v6 m ρ c)
theorem W4_v30 (c : Dev nD) : W4 m ρ c (Proc.devRef .tc main_v30) = Cert.Graph.weight (F := F) gfacts (m ((c : Thread nD τ).loc main_arg1)) :=
  (W4_of_ne m ρ c main_v30 (by decide)).trans (W3_v30 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-! ## The second stretch: the aggregate over the graph, the bias as a row -/

set_option maxHeartbeats 4000000 in
theorem W5_v44 (c : Dev nD) : W5 m ρ c (Proc.devRef .tc main_v44)
    = Cert.Graph.aggregate (F := F) gfacts (m ((c : Thread nD τ).loc main_arg1)) (W4 m ρ c (Proc.devRef .tc main_v31)) := by
  dsimp only [W5]; after_results
  rw [W4_v6, W4_v3, W4_v30]
  rfl

theorem W5_v45 (c : Dev nD) : W5 m ρ c (Proc.devRef .tc main_v45)
    = Cert.KernelTail.row (F := F) tfacts (m ((c : Thread nD τ).loc main_arg3)) := by
  dsimp only [W5]; after_results
  rw [W4_arg3]
  rfl

theorem W5_arg3 (c : Dev nD) : W5 m ρ c (Proc.devRef .tc main_arg3) = m ((c : Thread nD τ).loc main_arg3) := by
  dsimp only [W5]; after_results; exact W4_arg3 m ρ c
theorem W5_arg4 (c : Dev nD) : W5 m ρ c (Proc.devRef .tc main_arg4) = m ((c : Thread nD τ).loc main_arg4) := by
  dsimp only [W5]; after_results; exact W4_arg4 m ρ c
theorem W5_arg5 (c : Dev nD) : W5 m ρ c (Proc.devRef .tc main_arg5) = m ((c : Thread nD τ).loc main_arg5) := by
  dsimp only [W5]; after_results; exact W4_arg5 m ρ c

/-! ## The second region's exit: what the third stretch reads beside the rows of sums -/

theorem W6_arg3 (c : Dev nD) : W6 m ρ c (Proc.devRef .tc main_arg3) = m ((c : Thread nD τ).loc main_arg3) :=
  (W6_of_ne m ρ c main_arg3 (by decide)).trans (W5_arg3 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W6_arg5 (c : Dev nD) : W6 m ρ c (Proc.devRef .tc main_arg5) = m ((c : Thread nD τ).loc main_arg5) :=
  (W6_of_ne m ρ c main_arg5 (by decide)).trans (W5_arg5 m ρ c)

/-- The aggregate is an input of the second region: it leaves the region as it entered. -/
theorem W6_v44 (c : Dev nD) : W6 m ρ c (Proc.devRef .tc main_v44) = W5 m ρ c (Proc.devRef .tc main_v44) :=
  (W6_arr m ρ c 0).trans (((dat1 (V5 m ρ) c).arrAt_in 0 rfl _).trans (A_eq1 (V5 m ρ) c 0))

/-! ## The third stretch: the mean, the clipped variance, the rows -/

theorem W7_v44 (c : Dev nD) : W7 m ρ c (Proc.devRef .tc main_v44) = W6 m ρ c (Proc.devRef .tc main_v44) := by
  dsimp only [W7]; after_results

theorem W7_v57 (c : Dev nD) : W7 m ρ c (Proc.devRef .tc main_v57)
    = Cert.KernelTail.row (F := F) tfacts (m ((c : Thread nD τ).loc main_arg3)) := by
  dsimp only [W7]; after_results
  rw [W6_arg3]
  rfl

theorem W7_v58 (c : Dev nD) : W7 m ρ c (Proc.devRef .tc main_v58)
    = Cert.KernelTail.row (F := F) tfacts (Cert.KernelTail.meanOf (F := F) tfacts (W6 m ρ c (Proc.devRef .tc main_v46_0))) := by
  dsimp only [W7]; after_results
  rfl

set_option maxHeartbeats 1000000 in
theorem W7_v59 (c : Dev nD) : W7 m ρ c (Proc.devRef .tc main_v59)
    = Cert.KernelTail.row (F := F) tfacts (Cert.KernelTail.varOf (F := F) tfacts
        (W6 m ρ c (Proc.devRef .tc main_v46_0)) (W6 m ρ c (Proc.devRef .tc main_v46_1))) := by
  dsimp only [W7]; after_results
  rfl

theorem W7_v60 (c : Dev nD) : W7 m ρ c (Proc.devRef .tc main_v60)
    = Cert.KernelTail.row (F := F) tfacts (m ((c : Thread nD τ).loc main_arg4)) := by
  dsimp only [W7]; after_results
  rw [W6_arg4]
  rfl

theorem W7_v61 (c : Dev nD) : W7 m ρ c (Proc.devRef .tc main_v61)
    = Cert.KernelTail.row (F := F) tfacts (m ((c : Thread nD τ).loc main_arg5)) := by
  dsimp only [W7]; after_results
  rw [W6_arg5]
  rfl

end Cert.KernelIdeal.Host

/-! ## At the extended reals: the regions' values, and the result -/

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first region leaves the product of the first and third arguments in its output array. -/
theorem W4_v31 (c : Dev nD) : W4 m ρ c (Proc.devRef .tc main_v31)
    = Cert.Spec.mm (m ((c : Thread nD τ).loc main_arg0)) (m ((c : Thread nD τ).loc main_arg2)) := by
  refine (W4_arr m ρ c 2).trans ((Region0.final (V3 m ρ) c).trans ?_)
  show Cert.Spec.mm (W3 m ρ c (Proc.devRef .tc main_arg0)) (W3 m ρ c (Proc.devRef .tc main_arg2)) = _
  rw [W3_arg0, W3_arg2]

/-- The second region leaves the column sums of the activation in its first output row, -/
theorem W6_v46_0 (c : Dev nD) : W6 m ρ c (Proc.devRef .tc main_v46_0)
    = fun i => Cert.Spec.colSum (Cert.Spec.actRow (W5 m ρ c (Proc.devRef .tc main_v44)) (W5 m ρ c (Proc.devRef .tc main_v45))) (i 1) :=
  (W6_arr m ρ c 2).trans (Region1.final_sum (V5 m ρ) c)

/-- and the column sums of its squares in the second. -/
theorem W6_v46_1 (c : Dev nD) : W6 m ρ c (Proc.devRef .tc main_v46_1)
    = fun i => Cert.Spec.colSumSq (Cert.Spec.actRow (W5 m ρ c (Proc.devRef .tc main_v44)) (W5 m ρ c (Proc.devRef .tc main_v45))) (i 1) :=
  (W6_arr m ρ c 3).trans (Region1.final_sumsq (V5 m ρ) c)

/-- The third region leaves the row-form normalised output of what the third stretch hands it. -/
theorem W8_v62 (c : Dev nD) : W8 m ρ c (Proc.devRef .tc main_v62)
    = Cert.Spec.outRow (W7 m ρ c (Proc.devRef .tc main_v44)) (W7 m ρ c (Proc.devRef .tc main_v57))
        (W7 m ρ c (Proc.devRef .tc main_v58)) (W7 m ρ c (Proc.devRef .tc main_v59))
        (W7 m ρ c (Proc.devRef .tc main_v60)) (W7 m ρ c (Proc.devRef .tc main_v61)) :=
  (W8_arr m ρ c 6).trans (Region2.final (V7 m ρ) c)

/-- THE KERNEL PROGRAM'S RESULT as a function of its arguments: the normalised output, with the clipped
    variance, of the activation of the aggregate of `x · W` over the graph. -/
theorem result (c : Dev nD) : W8 m ρ c (Proc.devRef .tc main_v62)
    = Cert.Spec.out
        (Cert.Spec.act (Cert.Graph.aggregate (F := Ideal) gfacts (m ((c : Thread nD τ).loc main_arg1))
          (Cert.Spec.mm (m ((c : Thread nD τ).loc main_arg0)) (m ((c : Thread nD τ).loc main_arg2)))) (m ((c : Thread nD τ).loc main_arg3)))
        (Cert.Spec.mean (Cert.Spec.act (Cert.Graph.aggregate (F := Ideal) gfacts (m ((c : Thread nD τ).loc main_arg1))
          (Cert.Spec.mm (m ((c : Thread nD τ).loc main_arg0)) (m ((c : Thread nD τ).loc main_arg2)))) (m ((c : Thread nD τ).loc main_arg3))))
        (Cert.Spec.varClipped (Cert.Spec.act (Cert.Graph.aggregate (F := Ideal) gfacts (m ((c : Thread nD τ).loc main_arg1))
          (Cert.Spec.mm (m ((c : Thread nD τ).loc main_arg0)) (m ((c : Thread nD τ).loc main_arg2)))) (m ((c : Thread nD τ).loc main_arg3))))
        (m ((c : Thread nD τ).loc main_arg4)) (m ((c : Thread nD τ).loc main_arg5)) := by
  have hA : W5 m ρ c (Proc.devRef .tc main_v44)
      = Cert.Graph.aggregate (F := Ideal) gfacts (m ((c : Thread nD τ).loc main_arg1))
          (Cert.Spec.mm (m ((c : Thread nD τ).loc main_arg0)) (m ((c : Thread nD τ).loc main_arg2))) := by
    rw [W5_v44, W4_v31]
  rw [W8_v62, W7_v44, W7_v57, W7_v58, W7_v59, W7_v60, W7_v61, W6_v44, hA]
  exact Cert.KernelTail.out_eq tfacts _ _ _ _ _ _
    (by rw [W6_v46_0, hA, W5_v45]; rfl) (by rw [W6_v46_1, hA, W5_v45]; rfl)

end Cert.KernelIdeal.Host
end
-- ==== Proof.RefRun.lean ====
/-
  The reference program's @main as one straight line of host operations, and its run.

  @main is printed in two windows (statements 1 … 60 and 61 … 85).  Each window is restated here as a
  literal list of operations, every call of an outlined function replaced by that function's own
  operations over the call's buffers: the select after the power (three operations) in the first
  window; the maximum with zero (three) and the variance (nineteen, then the three of the select it
  calls) in the second.  The two lists appended are @main; run from any memory they end with every
  buffer at the fold of the operations' results over the launch contents, and they write none of the six
  argument buffers.
-/
import proofs.«138294_j5583457485036_2_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The first window's 62 operations, in order: the edge lists with the self-loops, the degrees and their
    inverse square roots (the select's three operations in place of its call), the edge weights, the
    product with the weight matrix, the messages and their sum per target, the bias added. -/
abbrev ops0 : List (HloOp τ sig (Elt F)) :=
  [ StableHlo.nullary main_v0 (iotaInDim S40000 32 0),
    StableHlo.unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v1 main_v2 rfl shapeCasts_S1x640000_S640000,
    StableHlo.binary main_v2 main_v0 main_v3 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    StableHlo.unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v4 main_v5 rfl shapeCasts_S1x640000_S640000,
    StableHlo.binary main_v5 main_v0 main_v6 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    StableHlo.nullary main_cst (constant S_ .f32 0x3F800000#32),
    StableHlo.unary main_cst main_v7 (broadcastInDim S680000 ![] bcast_S_S680000 : (⟨S_, .f32⟩ : BufTy).Contents (Elt F) → (⟨S680000, .f32⟩ : BufTy).Contents (Elt F)),
    StableHlo.nullary main_cst_0 (constant S_ .f32 0x00000000#32),
    StableHlo.unary main_cst_0 main_v8 (broadcastInDim S40000 ![] bcast_S_S40000 : (⟨S_, .f32⟩ : BufTy).Contents (Elt F) → (⟨S40000, .f32⟩ : BufTy).Contents (Elt F)),
    StableHlo.unary main_v6 main_v9 (broadcastInDim S680000x1 ![0] bcast_S680000_S680000x1_0 : (⟨S680000, .i32⟩ : BufTy).Contents (Elt F) → (⟨S680000x1, .i32⟩ : BufTy).Contents (Elt F)),
    StableHlo.ternary main_v8 main_v9 main_v7 main_v10 ((fun x i u => Host.scatterAdd scatter_S40000_S680000x1_S680000_n_0_0_1 x i u) : (⟨S40000, .f32⟩ : BufTy).Contents (Elt F) → (⟨S680000x1, .i32⟩ : BufTy).Contents (Elt F) → (⟨S680000, .f32⟩ : BufTy).Contents (Elt F) → (⟨S40000, .f32⟩ : BufTy).Contents (Elt F)),
    StableHlo.nullary main_cst_1 (constant S_ .f32 0x00000000#32),
    StableHlo.unary main_cst_1 main_v11 (broadcastInDim S40000 ![] bcast_S_S40000 : (⟨S_, .f32⟩ : BufTy).Contents (Elt F) → (⟨S40000, .f32⟩ : BufTy).Contents (Elt F)),
    StableHlo.binary main_v10 main_v11 main_v12 (cmpf .ogt : (⟨S40000, .f32⟩ : BufTy).Contents (Elt F) → (⟨S40000, .f32⟩ : BufTy).Contents (Elt F) → (⟨S40000, .i1⟩ : BufTy).Contents (Elt F)),
    StableHlo.nullary main_cst_2 (constant S_ .f32 0xBF000000#32),
    StableHlo.unary main_cst_2 main_v13 (broadcastInDim S40000 ![] bcast_S_S40000 : (⟨S_, .f32⟩ : BufTy).Contents (Elt F) → (⟨S40000, .f32⟩ : BufTy).Contents (Elt F)),
    StableHlo.binary main_v10 main_v13 main_v14 (Host.powf : (⟨S40000, .f32⟩ : BufTy).Contents (Elt F) → (⟨S40000, .f32⟩ : BufTy).Contents (Elt F) → (⟨S40000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S40000, .f32⟩) (broadcastInDim S40000 ![] bcast_S_S40000),
    StableHlo.TRef.ternary (.of main_v12 : StableHlo.TRef sig ⟨S40000, .i1⟩) (.of main_v14 : StableHlo.TRef sig ⟨S40000, .f32⟩) (.of main_call0_v1 : StableHlo.TRef sig ⟨S40000, .f32⟩) (.of main_v15 : StableHlo.TRef sig ⟨S40000, .f32⟩) select,
    StableHlo.nullary main_c (constantI S_ 32 0#32),
    StableHlo.unary main_c main_v16 (broadcastInDim S680000 ![] bcast_S_S680000 : (⟨S_, .i32⟩ : BufTy).Contents (Elt F) → (⟨S680000, .i32⟩ : BufTy).Contents (Elt F)),
    StableHlo.binary main_v3 main_v16 main_v17 (cmpi .slt : (⟨S680000, .i32⟩ : BufTy).Contents (Elt F) → (⟨S680000, .i32⟩ : BufTy).Contents (Elt F) → (⟨S680000, .i1⟩ : BufTy).Contents (Elt F)),
    StableHlo.nullary main_c_4 (constantI S_ 32 40000#32),
    StableHlo.unary main_c_4 main_v18 (broadcastInDim S680000 ![] bcast_S_S680000 : (⟨S_, .i32⟩ : BufTy).Contents (Elt F) → (⟨S680000, .i32⟩ : BufTy).Contents (Elt F)),
    StableHlo.binary main_v3 main_v18 main_v19 (addi : (⟨S680000, .i32⟩ : BufTy).Contents (Elt F) → (⟨S680000, .i32⟩ : BufTy).Contents (Elt F) → (⟨S680000, .i32⟩ : BufTy).Contents (Elt F)),
    StableHlo.ternary main_v17 main_v19 main_v3 main_v20 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v20 main_v21 (broadcastInDim S680000x1 ![0] bcast_S680000_S680000x1_0 : (⟨S680000, .i32⟩ : BufTy).Contents (Elt F) → (⟨S680000x1, .i32⟩ : BufTy).Contents (Elt F)),
    StableHlo.binary main_v15 main_v21 main_v22 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    StableHlo.nullary main_c_5 (constantI S_ 32 0#32),
    StableHlo.unary main_c_5 main_v23 (broadcastInDim S680000 ![] bcast_S_S680000 : (⟨S_, .i32⟩ : BufTy).Contents (Elt F) → (⟨S680000, .i32⟩ : BufTy).Contents (Elt F)),
    StableHlo.binary main_v6 main_v23 main_v24 (cmpi .slt : (⟨S680000, .i32⟩ : BufTy).Contents (Elt F) → (⟨S680000, .i32⟩ : BufTy).Contents (Elt F) → (⟨S680000, .i1⟩ : BufTy).Contents (Elt F)),
    StableHlo.nullary main_c_6 (constantI S_ 32 40000#32),
    StableHlo.unary main_c_6 main_v25 (broadcastInDim S680000 ![] bcast_S_S680000 : (⟨S_, .i32⟩ : BufTy).Contents (Elt F) → (⟨S680000, .i32⟩ : BufTy).Contents (Elt F)),
    StableHlo.binary main_v6 main_v25 main_v26 (addi : (⟨S680000, .i32⟩ : BufTy).Contents (Elt F) → (⟨S680000, .i32⟩ : BufTy).Contents (Elt F) → (⟨S680000, .i32⟩ : BufTy).Contents (Elt F)),
    StableHlo.ternary main_v24 main_v26 main_v6 main_v27 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v27 main_v28 (broadcastInDim S680000x1 ![0] bcast_S680000_S680000x1_0 : (⟨S680000, .i32⟩ : BufTy).Contents (Elt F) → (⟨S680000x1, .i32⟩ : BufTy).Contents (Elt F)),
    StableHlo.binary main_v15 main_v28 main_v29 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    StableHlo.binary main_v22 main_v29 main_v30 (mulf : (⟨S680000, .f32⟩ : BufTy).Contents (Elt F) → (⟨S680000, .f32⟩ : BufTy).Contents (Elt F) → (⟨S680000, .f32⟩ : BufTy).Contents (Elt F)),
    StableHlo.binary main_arg0 main_arg2 main_v31 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.nullary main_c_7 (constantI S_ 32 0#32),
    StableHlo.unary main_c_7 main_v32 (broadcastInDim S680000 ![] bcast_S_S680000 : (⟨S_, .i32⟩ : BufTy).Contents (Elt F) → (⟨S680000, .i32⟩ : BufTy).Contents (Elt F)),
    StableHlo.binary main_v3 main_v32 main_v33 (cmpi .slt : (⟨S680000, .i32⟩ : BufTy).Contents (Elt F) → (⟨S680000, .i32⟩ : BufTy).Contents (Elt F) → (⟨S680000, .i1⟩ : BufTy).Contents (Elt F)),
    StableHlo.nullary main_c_8 (constantI S_ 32 40000#32),
    StableHlo.unary main_c_8 main_v34 (broadcastInDim S680000 ![] bcast_S_S680000 : (⟨S_, .i32⟩ : BufTy).Contents (Elt F) → (⟨S680000, .i32⟩ : BufTy).Contents (Elt F)),
    StableHlo.binary main_v3 main_v34 main_v35 (addi : (⟨S680000, .i32⟩ : BufTy).Contents (Elt F) → (⟨S680000, .i32⟩ : BufTy).Contents (Elt F) → (⟨S680000, .i32⟩ : BufTy).Contents (Elt F)),
    StableHlo.ternary main_v33 main_v35 main_v3 main_v36 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v36 main_v37 (broadcastInDim S680000x1 ![0] bcast_S680000_S680000x1_0 : (⟨S680000, .i32⟩ : BufTy).Contents (Elt F) → (⟨S680000x1, .i32⟩ : BufTy).Contents (Elt F)),
    StableHlo.binary main_v31 main_v37 main_v38 ((fun x i => Host.gather gather_S40000x128_S680000x1_S680000x128_1_0_n_n_0_1_1128 x i) : (⟨S40000x128, .f32⟩ : BufTy).Contents (Elt F) → (⟨S680000x1, .i32⟩ : BufTy).Contents (Elt F) → (⟨S680000x128, .f32⟩ : BufTy).Contents (Elt F)),
    StableHlo.unary main_v30 main_v39 (broadcastInDim S680000x1 ![0] bcast_S680000_S680000x1_0 : (⟨S680000, .f32⟩ : BufTy).Contents (Elt F) → (⟨S680000x1, .f32⟩ : BufTy).Contents (Elt F)),
    StableHlo.unary main_v39 main_v40 (broadcastInDim S680000x128 ![0, 1] bcast_S680000x1_S680000x128_0_1 : (⟨S680000x1, .f32⟩ : BufTy).Contents (Elt F) → (⟨S680000x128, .f32⟩ : BufTy).Contents (Elt F)),
    StableHlo.binary main_v38 main_v40 main_v41 (mulf : (⟨S680000x128, .f32⟩ : BufTy).Contents (Elt F) → (⟨S680000x128, .f32⟩ : BufTy).Contents (Elt F) → (⟨S680000x128, .f32⟩ : BufTy).Contents (Elt F)),
    StableHlo.nullary main_cst_9 (constant S_ .f32 0x00000000#32),
    StableHlo.unary main_cst_9 main_v42 (broadcastInDim S40000x128 ![] bcast_S_S40000x128 : (⟨S_, .f32⟩ : BufTy).Contents (Elt F) → (⟨S40000x128, .f32⟩ : BufTy).Contents (Elt F)),
    StableHlo.unary main_v6 main_v43 (broadcastInDim S680000x1 ![0] bcast_S680000_S680000x1_0 : (⟨S680000, .i32⟩ : BufTy).Contents (Elt F) → (⟨S680000x1, .i32⟩ : BufTy).Contents (Elt F)),
    StableHlo.ternary main_v42 main_v43 main_v41 main_v44 ((fun x i u => Host.scatterAdd scatter_S40000x128_S680000x1_S680000x128_1_0_0_1 x i u) : (⟨S40000x128, .f32⟩ : BufTy).Contents (Elt F) → (⟨S680000x1, .i32⟩ : BufTy).Contents (Elt F) → (⟨S680000x128, .f32⟩ : BufTy).Contents (Elt F) → (⟨S40000x128, .f32⟩ : BufTy).Contents (Elt F)),
    StableHlo.unary main_arg3 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S40000x128 ![0, 1] bcast_S1x128_S40000x128_0_1 : (⟨S1x128, .f32⟩ : BufTy).Contents (Elt F) → (⟨S40000x128, .f32⟩ : BufTy).Contents (Elt F)),
    StableHlo.binary main_v44 main_v46 main_v47 (addf : (⟨S40000x128, .f32⟩ : BufTy).Contents (Elt F) → (⟨S40000x128, .f32⟩ : BufTy).Contents (Elt F) → (⟨S40000x128, .f32⟩ : BufTy).Contents (Elt F)) ]

/-- The second window's 47 operations, in order: the maximum with zero (three operations in place of its call),
    the column means, the variance (its nineteen operations and the three of the select it calls, in
    place of the call), the normalisation, the scale and the shift. -/
abbrev ops1 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S40000x128, .f32⟩) (broadcastInDim S40000x128 ![] bcast_S_S40000x128),
    StableHlo.TRef.binary (.of main_v47 : StableHlo.TRef sig ⟨S40000x128, .f32⟩) (.of main_call1_v0 : StableHlo.TRef sig ⟨S40000x128, .f32⟩) (.of main_v48 : StableHlo.TRef sig ⟨S40000x128, .f32⟩) maximumf,
    StableHlo.nullary main_cst_10 (constant S_ .f32 0x00000000#32),
    StableHlo.binary main_v48 main_cst_10 main_v49 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_11 (constant S_ .f32 0x471C4000#32),
    StableHlo.unary main_cst_11 main_v50 (broadcastInDim S128 ![] bcast_S_S128 : (⟨S_, .f32⟩ : BufTy).Contents (Elt F) → (⟨S128, .f32⟩ : BufTy).Contents (Elt F)),
    StableHlo.binary main_v49 main_v50 main_v51 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary (.of main_call2_cst : StableHlo.TRef sig ⟨S_, .f32⟩) (constant S_ .f32 0x00000000#32),
    StableHlo.TRef.binary (.of main_v48 : StableHlo.TRef sig ⟨S40000x128, .f32⟩) (.of main_call2_cst : StableHlo.TRef sig ⟨S_, .f32⟩) (.of main_call2_v0 : StableHlo.TRef sig ⟨S128, .f32⟩) (fun x v => Host.reduceAdd x v reducesTo_S40000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x471C4000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S40000x128, .f32⟩) (broadcastInDim S40000x128 ![0, 1] bcast_S1x128_S40000x128_0_1),
    StableHlo.TRef.binary (.of main_v48 : StableHlo.TRef sig ⟨S40000x128, .f32⟩) (.of main_call2_v4 : StableHlo.TRef sig ⟨S40000x128, .f32⟩) (.of main_call2_v5 : StableHlo.TRef sig ⟨S40000x128, .f32⟩) subf,
    StableHlo.TRef.binary (.of main_call2_v5 : StableHlo.TRef sig ⟨S40000x128, .f32⟩) (.of main_call2_v5 : StableHlo.TRef sig ⟨S40000x128, .f32⟩) (.of main_call2_v6 : StableHlo.TRef sig ⟨S40000x128, .f32⟩) mulf,
    StableHlo.TRef.unary (.of main_c_12 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x471C4000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S40000x128, .f32⟩) (.of main_call2_cst_2 : StableHlo.TRef sig ⟨S_, .f32⟩) (.of main_call2_v9 : StableHlo.TRef sig ⟨S128, .f32⟩) (fun x v => Host.reduceAdd x v reducesTo_S40000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v52 : StableHlo.TRef sig ⟨S128, .f32⟩) (fun p a b => select (broadcastInDim S128 ![] bcast_S_S128 p) a b),
    StableHlo.unary main_v51 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S40000x128 ![0, 1] bcast_S1x128_S40000x128_0_1 : (⟨S1x128, .f32⟩ : BufTy).Contents (Elt F) → (⟨S40000x128, .f32⟩ : BufTy).Contents (Elt F)),
    StableHlo.binary main_v48 main_v54 main_v55 (subf : (⟨S40000x128, .f32⟩ : BufTy).Contents (Elt F) → (⟨S40000x128, .f32⟩ : BufTy).Contents (Elt F) → (⟨S40000x128, .f32⟩ : BufTy).Contents (Elt F)),
    StableHlo.nullary main_cst_13 (constant S_ .f32 0x3727C5AC#32),
    StableHlo.unary main_cst_13 main_v56 (broadcastInDim S128 ![] bcast_S_S128 : (⟨S_, .f32⟩ : BufTy).Contents (Elt F) → (⟨S128, .f32⟩ : BufTy).Contents (Elt F)),
    StableHlo.binary main_v52 main_v56 main_v57 (addf : (⟨S128, .f32⟩ : BufTy).Contents (Elt F) → (⟨S128, .f32⟩ : BufTy).Contents (Elt F) → (⟨S128, .f32⟩ : BufTy).Contents (Elt F)),
    StableHlo.unary main_v57 main_v58 (Host.rsqrt : (⟨S128, .f32⟩ : BufTy).Contents (Elt F) → (⟨S128, .f32⟩ : BufTy).Contents (Elt F)),
    StableHlo.unary main_v58 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S40000x128 ![0, 1] bcast_S1x128_S40000x128_0_1 : (⟨S1x128, .f32⟩ : BufTy).Contents (Elt F) → (⟨S40000x128, .f32⟩ : BufTy).Contents (Elt F)),
    StableHlo.binary main_v55 main_v60 main_v61 (mulf : (⟨S40000x128, .f32⟩ : BufTy).Contents (Elt F) → (⟨S40000x128, .f32⟩ : BufTy).Contents (Elt F) → (⟨S40000x128, .f32⟩ : BufTy).Contents (Elt F)),
    StableHlo.unary main_arg4 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S40000x128 ![0, 1] bcast_S1x128_S40000x128_0_1 : (⟨S1x128, .f32⟩ : BufTy).Contents (Elt F) → (⟨S40000x128, .f32⟩ : BufTy).Contents (Elt F)),
    StableHlo.binary main_v61 main_v63 main_v64 (mulf : (⟨S40000x128, .f32⟩ : BufTy).Contents (Elt F) → (⟨S40000x128, .f32⟩ : BufTy).Contents (Elt F) → (⟨S40000x128, .f32⟩ : BufTy).Contents (Elt F)),
    StableHlo.unary main_arg5 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S40000x128 ![0, 1] bcast_S1x128_S40000x128_0_1 : (⟨S1x128, .f32⟩ : BufTy).Contents (Elt F) → (⟨S40000x128, .f32⟩ : BufTy).Contents (Elt F)),
    StableHlo.binary main_v64 main_v66 main_v67 (addf : (⟨S40000x128, .f32⟩ : BufTy).Contents (Elt F) → (⟨S40000x128, .f32⟩ : BufTy).Contents (Elt F) → (⟨S40000x128, .f32⟩ : BufTy).Contents (Elt F)) ]

/-- @main's 109 operations, in order. -/
abbrev ops : List (HloOp τ sig (Elt F)) := ops0 ++ ops1

set_option maxRecDepth 4096 in
set_option maxHeartbeats 4000000 in
/-- The first window is its list run in order. -/
theorem part0_eq (c : Dev nD) : main_part0 (F := F) c = seq ops0 := by
  simp only [main_part0, fn_where.body, seq, bind_assoc, pure_bind]
  rfl

set_option maxRecDepth 4096 in
set_option maxHeartbeats 4000000 in
/-- The second window is its list run in order. -/
theorem part1_eq (c : Dev nD) : main_part1 (F := F) c = seq ops1 := by
  simp only [main_part1, fn_relu.body, fn_var.body, fn_where_0.body, seq, bind_assoc, pure_bind]

/-- @main is the two windows in order, so the appended list run in order. -/
theorem main_eq (c : Dev nD) : main (F := F) c = seq ops := by
  unfold main
  rw [part0_eq, part1_eq]
  exact (seq_append ops0 ops1).symm

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub ..⟩

theorem ops1_sub : (ops1 : List (HloOp τ sig (Elt F))).Forall fun op => op.bufs ⊆ tcRefs τ sig :=
  ⟨nullary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

/-- Every operation determines its results (none allocates). -/
theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops_fresh : ∀ op ∈ (ops : List (HloOp τ sig (Elt F))), op.fresh = ∅ :=
  fun op h => (List.mem_append.mp h).elim (ops0_fresh op) (ops1_fresh op)

/-! ## What the two lists write -/

/-- The buffers the first window writes: one per operation, in order. -/
abbrev written0 : List (Ref sig .tc) :=
  [main_v0, main_v1, main_v2, main_v3, main_v4, main_v5, main_v6, main_cst, main_v7, main_cst_0,
   main_v8, main_v9, main_v10, main_cst_1, main_v11, main_v12, main_cst_2, main_v13, main_v14, main_cst_3,
   main_call0_v0, main_call0_v1, main_v15, main_c, main_v16, main_v17, main_c_4, main_v18, main_v19, main_v20,
   main_v21, main_v22, main_c_5, main_v23, main_v24, main_c_6, main_v25, main_v26, main_v27, main_v28,
   main_v29, main_v30, main_v31, main_c_7, main_v32, main_v33, main_c_8, main_v34, main_v35, main_v36,
   main_v37, main_v38, main_v39, main_v40, main_v41, main_cst_9, main_v42, main_v43, main_v44, main_v45,
   main_v46, main_v47]

/-- The buffers the second window writes: one per operation, in order. -/
abbrev written1 : List (Ref sig .tc) :=
  [main_call1_cst, main_call1_v0, main_v48, main_cst_10, main_v49, main_cst_11, main_v50, main_v51, main_c_12, main_call2_cst,
   main_call2_v0, main_call2_v1, main_call2_cst_0, main_call2_v2, main_call2_v3, main_call2_v4, main_call2_v5, main_call2_v6, main_call2_v7, main_call2_cst_1,
   main_call2_v8, main_call2_cst_2, main_call2_v9, main_call2_v10, main_call2_v11, main_call2_cst_3, main_call2_v12, main_call2_cst_4, main_call2_call0_v0, main_call2_call0_v1,
   main_v52, main_v53, main_v54, main_v55, main_cst_13, main_v56, main_v57, main_v58, main_v59, main_v60,
   main_v61, main_v62, main_v63, main_v64, main_v65, main_v66, main_v67]

private theorem single_sub_of_mem {W : List (Ref sig .tc)} {y : Ref sig .tc} (h : y ∈ W) :
    ({Proc.devRef .tc y} : Finset (DevRef τ sig)) ⊆ (W.map (Proc.devRef (τ := τ) .tc)).toFinset := by
  intro b hb
  rw [Finset.mem_singleton] at hb
  subst hb
  exact List.mem_toFinset.mpr (List.mem_map_of_mem h)

theorem ops0_writes : (ops0 : List (HloOp τ sig (Elt F))).Forall fun op =>
    op.writes ⊆ (written0.map (Proc.devRef (τ := τ) .tc)).toFinset := by
  simp only [List.Forall, nullary_writes, unary_writes, binary_writes, ternary_writes, reshape_writes]
  repeat' apply And.intro
  all_goals exact single_sub_of_mem (by decide)

theorem ops1_writes : (ops1 : List (HloOp τ sig (Elt F))).Forall fun op =>
    op.writes ⊆ (written1.map (Proc.devRef (τ := τ) .tc)).toFinset := by
  simp only [List.Forall, nullary_writes, unary_writes, binary_writes, ternary_writes, reshape_writes]
  repeat' apply And.intro
  all_goals exact single_sub_of_mem (by decide)

/-- A buffer the first window does not write keeps its contents through it. -/
theorem after_ops0_of_not_written (V : Valuation τ sig (Elt F)) {r : Ref sig .tc} (hr : r ∉ written0) :
    after ops0 V (Proc.devRef .tc r) = V (Proc.devRef .tc r) :=
  after_of_writes_sub ops0 V ops0_writes hr

/-- A buffer the second window does not write keeps its contents through it. -/
theorem after_ops1_of_not_written (V : Valuation τ sig (Elt F)) {r : Ref sig .tc} (hr : r ∉ written1) :
    after ops1 V (Proc.devRef .tc r) = V (Proc.devRef .tc r) :=
  after_of_writes_sub ops1 V ops1_writes hr

/-- The fold through an appended list is the fold through the second part from the fold through the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- A buffer neither window writes keeps its contents through @main. -/
theorem after_ops_of_not_written (V : Valuation τ sig (Elt F)) {r : Ref sig .tc} (h0 : r ∉ written0) (h1 : r ∉ written1) :
    after ops V (Proc.devRef .tc r) = V (Proc.devRef .tc r) := by
  rw [show (ops : List (HloOp τ sig (Elt F))) = ops0 ++ ops1 from rfl, after_append,
    after_ops1_of_not_written _ h1, after_ops0_of_not_written _ h0]

/-- On every device, for any float values, from any memory with zero counters: every weakly fair execution of
    @main terminates with the result buffer at the fold of the 109 operations over the launch contents and the six
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = after ops (fun b => m (c, b)) (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨h c main_v67,
      (h c main_arg0).trans (after_ops_of_not_written _ (by decide) (by decide)),
      (h c main_arg1).trans (after_ops_of_not_written _ (by decide) (by decide)),
      (h c main_arg2).trans (after_ops_of_not_written _ (by decide) (by decide)),
      (h c main_arg3).trans (after_ops_of_not_written _ (by decide) (by decide)),
      (h c main_arg4).trans (after_ops_of_not_written _ (by decide) (by decide)),
      (h c main_arg5).trans (after_ops_of_not_written _ (by decide) (by decide))⟩)
    (run_seq scopedRefs_eq scopedSems_eq defs main (fun _ => ops) main_eq (fun _ => ops_sub) m ρ (fun _ => ops_fresh))

end Cert.ReferenceIdeal.Run

end
-- ==== Proof.RefTail.lean ====
/-
  The reference's last stage, written once as a function of the aggregated messages.

  From the aggregate `A` (40000 × 128), the bias `b`, the scale `γ` and the shift `β` (128 each): the
  activation is `v = max (A + b) 0`; per channel the mean is the column sum over 40000; the variance is the
  mean of the squared deviations from the mean (the column sum of the squares of `v - mean`, over
  `40000 - ddof` with `ddof = 0`, chosen where that divisor is positive); the result is
  `(v - mean) · rsqrt (variance + ε) · γ + β`.

  Every function here is the composition of the host operations as the program spells them; the shape
  facts those operations cite are gathered in one structure of propositions.
-/
import Idealize.ShloMosaic.Lib.StableHlo
import Idealize.ShloMosaic.PureOps.Ideal
import Idealize.ShloMosaic.Lib.IdealHost
import Idealize.ShloMosaic.Lib.Pipeline.Value
import Idealize.ShloMosaic.Lib.ValueLayout
import proofs.«138294_j5583457485036_2_alg».proof.Proof.Spec

noncomputable section

namespace Cert.RefTail

open Idealize.ShloMosaic

abbrev S40000x128 : Shape := ⟨2, ![40000, 128]⟩
abbrev S1x128 : Shape := ⟨2, ![1, 128]⟩
abbrev S128 : Shape := ⟨1, ![128]⟩
abbrev S_ : Shape := ⟨0, ![]⟩

/-- The shape facts the stage's operations cite. -/
structure Facts : Prop where
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S40000x128 : S_.BroadcastsInDim S40000x128 (![] : Fin 0 → Fin S40000x128.rank)
  reducesTo_S40000x128_S128_d0 : S40000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)

variable (g : Facts)

variable {F : FTy → Type} [FloatOps F]

/-- The clip below at zero. -/
def relu (a : FVec F S40000x128 .f32) : FVec F S40000x128 .f32 :=
  maximumf a (broadcastInDim S40000x128 ![] g.bcast_S_S40000x128 (constant S_ .f32 0x00000000#32))

/-- A vector over the channels laid out along every row. -/
def rows (u : FVec F S128 .f32) : FVec F S40000x128 .f32 :=
  broadcastInDim S40000x128 ![0, 1] g.bcast_S1x128_S40000x128_0_1 (broadcastInDim S1x128 ![1] g.bcast_S128_S1x128_1 u)

/-- The sum of every column. -/
def colSums (v : FVec F S40000x128 .f32) : FVec F S128 .f32 :=
  Host.reduceAdd v (constant S_ .f32 0x00000000#32) g.reducesTo_S40000x128_S128_d0 g.h_S_

/-- The deviations from the column means, the means taken as a 1 × 128 row. -/
def centredRow (v : FVec F S40000x128 .f32) : FVec F S40000x128 .f32 :=
  subf v (broadcastInDim S40000x128 ![0, 1] g.bcast_S1x128_S40000x128_0_1
    (Host.divf (broadcastInDim S1x128 ![1] g.bcast_S128_S1x128_1 (colSums (F := F) g v))
      (broadcastInDim S1x128 ![] g.bcast_S_S1x128 (constant S_ .f32 0x471C4000#32))))

/-- The number of rows less the degrees of freedom removed (none). -/
def count : FVec F S_ .f32 :=
  subf (constant S_ .f32 0x471C4000#32) (sitofp .f32 (constantI S_ 32 0#32))

/-- The variance of every column: the mean of the squared deviations where the count is positive. -/
def variance (v : FVec F S40000x128 .f32) : FVec F S128 .f32 :=
  select (broadcastInDim S128 ![] g.bcast_S_S128 (cmpf .ogt (count (F := F)) (constant S_ .f32 0x00000000#32)))
    (Host.divf (colSums (F := F) g (mulf (centredRow (F := F) g v) (centredRow (F := F) g v)))
      (broadcastInDim S128 ![] g.bcast_S_S128 (count (F := F))))
    (broadcastInDim S128 ![] g.bcast_S_S128 (id (constant S_ .f32 0x7FC00000#32)))

/-- The mean of every column. -/
def means (v : FVec F S40000x128 .f32) : FVec F S128 .f32 :=
  Host.divf (colSums (F := F) g v) (broadcastInDim S128 ![] g.bcast_S_S128 (constant S_ .f32 0x471C4000#32))

/-- The normalisation of an activation `v`. -/
def normalise (v : FVec F S40000x128 .f32) (γ β : FVec F S128 .f32) : FVec F S40000x128 .f32 :=
  addf
    (mulf
      (mulf (subf v (rows (F := F) g (means (F := F) g v)))
        (rows (F := F) g (Host.rsqrt (addf (variance (F := F) g v)
          (broadcastInDim S128 ![] g.bcast_S_S128 (constant S_ .f32 0x3727C5AC#32))))))
      (rows (F := F) g γ))
    (rows (F := F) g β)

/-- The whole stage: the bias, the clip, the normalisation. -/
def tail (A : FVec F S40000x128 .f32) (b γ β : FVec F S128 .f32) : FVec F S40000x128 .f32 :=
  normalise (F := F) g (relu (F := F) g (addf A (rows (F := F) g b))) γ β

/-! ## The stage read at the ideal values -/

section AtIdeal

open Idealize.ShloMosaic.ValueIdx
open scoped BigOperators

/-- A vector over the channels laid out along every row reads, at `(r, j)`, its entry `j`. -/
theorem rows_apply (u : FVec Ideal S128 .f32) (r : Fin 40000) (j : Fin 128) :
    rows (F := Ideal) g u (ix2 r j) = u (ix1 j) := by
  unfold rows
  refine (broadcastInDim_apply _ g.bcast_S1x128_S40000x128_0_1 _ (ix2 r j) (ix2 (0 : Fin 1) j) ?_).trans ?_
  · intro a; match a with | ⟨0, _⟩ => rfl | ⟨1, _⟩ => rfl
  · refine broadcastInDim_apply _ g.bcast_S128_S1x128_1 u (ix2 (0 : Fin 1) j) (ix1 j) ?_
    intro a; match a with | ⟨0, _⟩ => rfl

/-- The column sums read at channel `j`: the sum over the rows (the initial value is `+0.0`). -/
theorem colSums_apply (v : FVec Ideal S40000x128 .f32) (j : Fin 128) :
    colSums (F := Ideal) g v (ix1 j) = ∑ r : Fin 40000, v (ix2 r j) := by
  have hred : S40000x128.Reduces [0] S128 := by decide
  refine (Ideal.hostReduceAdd_single g.reducesTo_S40000x128_S128_d0 hred v _ (ix1 j)).trans ?_
  show Ideal.ofBits .f32 0x00000000#32 + _ = _
  rw [Cert.Spec.ofBits_zero, zero_add]
  exact Finset.sum_congr rfl fun k _ => congrArg v (funext fun a => Fin.ext (by
    match a with | ⟨0, _⟩ => rfl | ⟨1, _⟩ => rfl))

/-- The count is the number of nodes: the integer `0` converts to `0`, and `40000.0 - 0 = 40000.0`. -/
theorem count_apply (i : S_.Idx) : count (F := Ideal) i = Cert.Spec.nodes := by
  show Ideal.ofBits .f32 0x471C4000#32 - (((0#32 : BitVec 32).toInt : ℝ) : EReal) = Cert.Spec.nodes
  have h0 : (0#32 : BitVec 32).toInt = 0 := by decide
  rw [h0, Int.cast_zero, EReal.coe_zero, sub_zero]
  rfl

/-- The mean read at channel `j`. -/
theorem means_apply (v : FVec Ideal S40000x128 .f32) (j : Fin 128) :
    means (F := Ideal) g v (ix1 j) = Cert.Spec.mean v j := by
  show Ideal.div (colSums (F := Ideal) g v (ix1 j)) (broadcastInDim S128 ![] g.bcast_S_S128 (constant (F := Ideal) S_ .f32 0x471C4000#32) (ix1 j)) = _
  rw [colSums_apply, broadcastInDim_scalar_apply]
  rfl

/-- The deviation from the column mean read at `(r, j)`. -/
theorem centredRow_apply (v : FVec Ideal S40000x128 .f32) (r : Fin 40000) (j : Fin 128) :
    centredRow (F := Ideal) g v (ix2 r j) = v (ix2 r j) - Cert.Spec.mean v j := by
  unfold centredRow
  show v (ix2 r j) - _ = v (ix2 r j) - _
  refine congrArg (v (ix2 r j) - ·) ?_
  refine (broadcastInDim_apply _ g.bcast_S1x128_S40000x128_0_1 _ (ix2 r j) (ix2 (0 : Fin 1) j) ?_).trans ?_
  · intro a; match a with | ⟨0, _⟩ => rfl | ⟨1, _⟩ => rfl
  · show Ideal.div (broadcastInDim S1x128 ![1] g.bcast_S128_S1x128_1 (colSums (F := Ideal) g v) (ix2 (0 : Fin 1) j))
        (broadcastInDim S1x128 ![] g.bcast_S_S1x128 (constant (F := Ideal) S_ .f32 0x471C4000#32) (ix2 (0 : Fin 1) j)) = _
    rw [broadcastInDim_scalar_apply,
      broadcastInDim_apply _ g.bcast_S128_S1x128_1 (colSums (F := Ideal) g v) (ix2 (0 : Fin 1) j) (ix1 j)
        (fun a => by match a with | ⟨0, _⟩ => rfl),
      colSums_apply]
    rfl

/-- The number of nodes is positive, so the comparison `count > 0` holds. -/
theorem count_pos : Ideal.cmp .ogt Cert.Spec.nodes (Ideal.ofBits .f32 0x00000000#32) = 1#1 := by
  rw [Cert.Spec.ofBits_zero, Cert.Spec.nodes_eq]
  have : (0 : EReal) < ((40000 : ℝ) : EReal) := by exact_mod_cast (by norm_num : (0 : ℝ) < 40000)
  simp [Ideal.cmp, this]

/-- The variance read at channel `j`: the count is positive, so the quotient is taken. -/
theorem variance_apply (v : FVec Ideal S40000x128 .f32) (j : Fin 128) :
    variance (F := Ideal) g v (ix1 j) = Cert.Spec.varCentred v j := by
  unfold variance
  rw [select_apply, broadcastInDim_scalar_apply]
  have hc : cmpf .ogt (count (F := Ideal)) (constant (F := Ideal) S_ .f32 0x00000000#32) ix0 = 1#1 := by
    show Ideal.cmp .ogt (count (F := Ideal) ix0) (Ideal.ofBits .f32 0x00000000#32) = 1#1
    rw [count_apply]; exact count_pos
  rw [hc]
  show Ideal.div (colSums (F := Ideal) g (mulf (centredRow (F := Ideal) g v) (centredRow (F := Ideal) g v)) (ix1 j))
      (broadcastInDim S128 ![] g.bcast_S_S128 (count (F := Ideal)) (ix1 j)) = _
  rw [colSums_apply, broadcastInDim_scalar_apply, count_apply]
  unfold Cert.Spec.varCentred
  refine congrArg (Ideal.div · Cert.Spec.nodes) (Finset.sum_congr rfl fun r _ => ?_)
  show centredRow (F := Ideal) g v (ix2 r j) * centredRow (F := Ideal) g v (ix2 r j) = _
  rw [centredRow_apply]

/-- The activation is the specification's. -/
theorem relu_act (A : FVec Ideal S40000x128 .f32) (b : FVec Ideal S128 .f32) :
    relu (F := Ideal) g (addf A (rows (F := Ideal) g b)) = Cert.Spec.act A b := by
  funext i
  obtain ⟨r, j, rfl⟩ : ∃ (r : Fin 40000) (j : Fin 128), i = ix2 r j := ⟨i 0, i 1, eq_ix2 i⟩
  show max (A (ix2 r j) + rows (F := Ideal) g b (ix2 r j))
      (broadcastInDim S40000x128 ![] g.bcast_S_S40000x128 (constant (F := Ideal) S_ .f32 0x00000000#32) (ix2 r j)) = _
  rw [rows_apply, broadcastInDim_scalar_apply, Cert.Spec.act_apply]
  show max _ (Ideal.ofBits .f32 0x00000000#32) = _
  rw [Cert.Spec.ofBits_zero]

/-- The normalisation read at `(r, j)`. -/
theorem normalise_apply (v : FVec Ideal S40000x128 .f32) (γ β : FVec Ideal S128 .f32) (r : Fin 40000) (j : Fin 128) :
    normalise (F := Ideal) g v γ β (ix2 r j)
      = (v (ix2 r j) - Cert.Spec.mean v j) * Ideal.rsqrt (Cert.Spec.varCentred v j + Cert.Spec.eps) * γ (ix1 j) + β (ix1 j) := by
  show (v (ix2 r j) - rows (F := Ideal) g (means (F := Ideal) g v) (ix2 r j))
        * rows (F := Ideal) g (Host.rsqrt (addf (variance (F := Ideal) g v)
            (broadcastInDim S128 ![] g.bcast_S_S128 (constant (F := Ideal) S_ .f32 0x3727C5AC#32)))) (ix2 r j)
        * rows (F := Ideal) g γ (ix2 r j) + rows (F := Ideal) g β (ix2 r j) = _
  rw [rows_apply, rows_apply, rows_apply, rows_apply, means_apply]
  show (v (ix2 r j) - Cert.Spec.mean v j)
        * Ideal.rsqrt (variance (F := Ideal) g v (ix1 j)
            + broadcastInDim S128 ![] g.bcast_S_S128 (constant (F := Ideal) S_ .f32 0x3727C5AC#32) (ix1 j))
        * γ (ix1 j) + β (ix1 j) = _
  rw [variance_apply, broadcastInDim_scalar_apply]
  rfl

/-- At the ideal values the stage is the specification's output over the centred variance. -/
theorem tail_eq (g : Cert.RefTail.Facts) (A : FVec Ideal S40000x128 .f32) (b γ β : FVec Ideal S128 .f32) :
    Cert.RefTail.tail (F := Ideal) g A b γ β
      = Cert.Spec.out (Cert.Spec.act A b) (Cert.Spec.mean (Cert.Spec.act A b)) (Cert.Spec.varCentred (Cert.Spec.act A b)) γ β := by
  unfold tail
  rw [relu_act]
  funext i
  obtain ⟨r, j, rfl⟩ : ∃ (r : Fin 40000) (j : Fin 128), i = ix2 r j := ⟨i 0, i 1, eq_ix2 i⟩
  rw [normalise_apply, Cert.Spec.out_apply]

end AtIdeal

end Cert.RefTail

end
-- ==== Proof.LibTypedRef.lean ====
/-
  A value written through a typed buffer reference and read back.

  A module-local function of a host program (an outlined `where`, `relu`, `log_softmax`, …) names its values by
  typed references: a buffer together with a proof that the buffer's type is the value's.  Each of its operations
  stores its result through the result's reference (`toBuf`: a transport along that proof) and the next operation
  reads it through the same reference (`ofBuf`: the transport back).  Read back to back the two transports cancel,
  whatever the buffer is: no entry of the signature's buffer table has to be looked up.  Rewriting with this lemma
  first leaves only the transports at a function's arguments and at its result.
-/
import Idealize.ShloMosaic.Lib.StableHlo

namespace Idealize.ShloMosaic.TypedRef

open Idealize.ShloMosaic

/-- Contents stored through a typed reference and read back through it are the contents. -/
theorem ofBuf_toBuf {sig : RefSig} {T : BufTy} {Val : EltTy → Type} (x : StableHlo.TRef sig T) (v : T.Contents Val) :
    x.ofBuf (x.toBuf v) = v := by
  obtain ⟨r, h, a, b⟩ := x
  subst h
  rfl

/-- Contents read through a typed reference and stored back through it are the contents. -/
theorem toBuf_ofBuf {sig : RefSig} {T : BufTy} {Val : EltTy → Type} (x : StableHlo.TRef sig T) (v : x.ref.ty.Contents Val) :
    x.toBuf (x.ofBuf v) = v := by
  obtain ⟨r, h, a, b⟩ := x
  subst h
  rfl

end Idealize.ShloMosaic.TypedRef
-- ==== Proof.RefRead.lean ====
/-
  The reference program's result read back as a function of its six arguments.

  The fold of @main's operations at the result buffer is read one stretch at a time, each stretch over an
  arbitrary valuation of the buffers so that what an earlier stretch computed enters the next as a single
  value: the edge lists with the self-loops appended (sources and targets), the inverse square roots of the
  degrees, the edge weights, the aggregate of the weighted rows of the product with the weight matrix, the
  bias added; then the second window (the clip at zero, the column means and variances, the normalisation,
  the scale and the shift) as a function of the biased aggregate.  Composed, the result is the last stage
  applied to the aggregate of the product.
-/
import proofs.«138294_j5583457485036_2_alg».proof.Proof.RefRun
import proofs.«138294_j5583457485036_2_alg».proof.Proof.Graph
import proofs.«138294_j5583457485036_2_alg».proof.Proof.RefTail
import proofs.«138294_j5583457485036_2_alg».proof.Proof.LibTypedRef

noncomputable section

namespace Cert.ReferenceIdeal.Run

open Cert.ReferenceIdeal Cert.ReferenceIdeal.Gen Idealize.ShloMosaic Idealize.ShloMosaic.TcCoe Idealize.SL.Sem Idealize.ShloMosaic.StableHlo
open Idealize.ShloMosaic.TypedRef (ofBuf_toBuf toBuf_ofBuf)

variable {F : FTy → Type} [FloatOps F]

/-- The graph stage's shape facts, as the reference proves them. -/
theorem gfacts : Cert.Graph.Facts :=
  ⟨slices_S2x640000_S1x640000_0_0, slices_S2x640000_S1x640000_1_0, shapeCasts_S1x640000_S640000,
    concatenates_S640000_S40000_S680000_d0, bcast_S_S680000, bcast_S_S40000, bcast_S680000_S680000x1_0,
    bcast_S680000x1_S680000x128_0_1, bcast_S_S40000x128, scatter_S40000_S680000x1_S680000_n_0_0_1_wf,
    gather_S40000_S680000x1_S680000_n_0_n_n_0_1_1_wf, gather_S40000x128_S680000x1_S680000x128_1_0_n_n_0_1_1128_wf,
    scatter_S40000x128_S680000x1_S680000x128_1_0_0_1_wf⟩

/-- The last stage's shape facts, as the reference proves them. -/
theorem tfacts : Cert.RefTail.Facts :=
  ⟨bcast_S128_S1x128_1, bcast_S1x128_S40000x128_0_1, bcast_S_S40000x128, reducesTo_S40000x128_S128_d0, h_S_,
    bcast_S_S128, bcast_S_S1x128⟩

/-! ## The first window, cut in five stretches -/

/-- Operations 1 … 7: the node numbers, the two rows of the edge list, each with every node appended. -/
abbrev sA : List (HloOp τ sig (Elt F)) :=
  [ StableHlo.nullary main_v0 (iotaInDim S40000 32 0),
    StableHlo.unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v1 main_v2 rfl shapeCasts_S1x640000_S640000,
    StableHlo.binary main_v2 main_v0 main_v3 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    StableHlo.unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v4 main_v5 rfl shapeCasts_S1x640000_S640000,
    StableHlo.binary main_v5 main_v0 main_v6 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)) ]

/-- Operations 8 … 23: the degrees and their inverse square roots. -/
abbrev sB : List (HloOp τ sig (Elt F)) :=
  [ StableHlo.nullary main_cst (constant S_ .f32 0x3F800000#32),
    StableHlo.unary main_cst main_v7 (broadcastInDim S680000 ![] bcast_S_S680000 : (⟨S_, .f32⟩ : BufTy).Contents (Elt F) → (⟨S680000, .f32⟩ : BufTy).Contents (Elt F)),
    StableHlo.nullary main_cst_0 (constant S_ .f32 0x00000000#32),
    StableHlo.unary main_cst_0 main_v8 (broadcastInDim S40000 ![] bcast_S_S40000 : (⟨S_, .f32⟩ : BufTy).Contents (Elt F) → (⟨S40000, .f32⟩ : BufTy).Contents (Elt F)),
    StableHlo.unary main_v6 main_v9 (broadcastInDim S680000x1 ![0] bcast_S680000_S680000x1_0 : (⟨S680000, .i32⟩ : BufTy).Contents (Elt F) → (⟨S680000x1, .i32⟩ : BufTy).Contents (Elt F)),
    StableHlo.ternary main_v8 main_v9 main_v7 main_v10 ((fun x i u => Host.scatterAdd scatter_S40000_S680000x1_S680000_n_0_0_1 x i u) : (⟨S40000, .f32⟩ : BufTy).Contents (Elt F) → (⟨S680000x1, .i32⟩ : BufTy).Contents (Elt F) → (⟨S680000, .f32⟩ : BufTy).Contents (Elt F) → (⟨S40000, .f32⟩ : BufTy).Contents (Elt F)),
    StableHlo.nullary main_cst_1 (constant S_ .f32 0x00000000#32),
    StableHlo.unary main_cst_1 main_v11 (broadcastInDim S40000 ![] bcast_S_S40000 : (⟨S_, .f32⟩ : BufTy).Contents (Elt F) → (⟨S40000, .f32⟩ : BufTy).Contents (Elt F)),
    StableHlo.binary main_v10 main_v11 main_v12 (cmpf .ogt : (⟨S40000, .f32⟩ : BufTy).Contents (Elt F) → (⟨S40000, .f32⟩ : BufTy).Contents (Elt F) → (⟨S40000, .i1⟩ : BufTy).Contents (Elt F)),
    StableHlo.nullary main_cst_2 (constant S_ .f32 0xBF000000#32),
    StableHlo.unary main_cst_2 main_v13 (broadcastInDim S40000 ![] bcast_S_S40000 : (⟨S_, .f32⟩ : BufTy).Contents (Elt F) → (⟨S40000, .f32⟩ : BufTy).Contents (Elt F)),
    StableHlo.binary main_v10 main_v13 main_v14 (Host.powf : (⟨S40000, .f32⟩ : BufTy).Contents (Elt F) → (⟨S40000, .f32⟩ : BufTy).Contents (Elt F) → (⟨S40000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S40000, .f32⟩) (broadcastInDim S40000 ![] bcast_S_S40000),
    StableHlo.TRef.ternary (.of main_v12 : StableHlo.TRef sig ⟨S40000, .i1⟩) (.of main_v14 : StableHlo.TRef sig ⟨S40000, .f32⟩) (.of main_call0_v1 : StableHlo.TRef sig ⟨S40000, .f32⟩) (.of main_v15 : StableHlo.TRef sig ⟨S40000, .f32⟩) select ]

/-- Operations 24 … 42: both ends' node numbers wrapped, the inverse square roots gathered at them, the weights. -/
abbrev sC : List (HloOp τ sig (Elt F)) :=
  [ StableHlo.nullary main_c (constantI S_ 32 0#32),
    StableHlo.unary main_c main_v16 (broadcastInDim S680000 ![] bcast_S_S680000 : (⟨S_, .i32⟩ : BufTy).Contents (Elt F) → (⟨S680000, .i32⟩ : BufTy).Contents (Elt F)),
    StableHlo.binary main_v3 main_v16 main_v17 (cmpi .slt : (⟨S680000, .i32⟩ : BufTy).Contents (Elt F) → (⟨S680000, .i32⟩ : BufTy).Contents (Elt F) → (⟨S680000, .i1⟩ : BufTy).Contents (Elt F)),
    StableHlo.nullary main_c_4 (constantI S_ 32 40000#32),
    StableHlo.unary main_c_4 main_v18 (broadcastInDim S680000 ![] bcast_S_S680000 : (⟨S_, .i32⟩ : BufTy).Contents (Elt F) → (⟨S680000, .i32⟩ : BufTy).Contents (Elt F)),
    StableHlo.binary main_v3 main_v18 main_v19 (addi : (⟨S680000, .i32⟩ : BufTy).Contents (Elt F) → (⟨S680000, .i32⟩ : BufTy).Contents (Elt F) → (⟨S680000, .i32⟩ : BufTy).Contents (Elt F)),
    StableHlo.ternary main_v17 main_v19 main_v3 main_v20 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v20 main_v21 (broadcastInDim S680000x1 ![0] bcast_S680000_S680000x1_0 : (⟨S680000, .i32⟩ : BufTy).Contents (Elt F) → (⟨S680000x1, .i32⟩ : BufTy).Contents (Elt F)),
    StableHlo.binary main_v15 main_v21 main_v22 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    StableHlo.nullary main_c_5 (constantI S_ 32 0#32),
    StableHlo.unary main_c_5 main_v23 (broadcastInDim S680000 ![] bcast_S_S680000 : (⟨S_, .i32⟩ : BufTy).Contents (Elt F) → (⟨S680000, .i32⟩ : BufTy).Contents (Elt F)),
    StableHlo.binary main_v6 main_v23 main_v24 (cmpi .slt : (⟨S680000, .i32⟩ : BufTy).Contents (Elt F) → (⟨S680000, .i32⟩ : BufTy).Contents (Elt F) → (⟨S680000, .i1⟩ : BufTy).Contents (Elt F)),
    StableHlo.nullary main_c_6 (constantI S_ 32 40000#32),
    StableHlo.unary main_c_6 main_v25 (broadcastInDim S680000 ![] bcast_S_S680000 : (⟨S_, .i32⟩ : BufTy).Contents (Elt F) → (⟨S680000, .i32⟩ : BufTy).Contents (Elt F)),
    StableHlo.binary main_v6 main_v25 main_v26 (addi : (⟨S680000, .i32⟩ : BufTy).Contents (Elt F) → (⟨S680000, .i32⟩ : BufTy).Contents (Elt F) → (⟨S680000, .i32⟩ : BufTy).Contents (Elt F)),
    StableHlo.ternary main_v24 main_v26 main_v6 main_v27 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v27 main_v28 (broadcastInDim S680000x1 ![0] bcast_S680000_S680000x1_0 : (⟨S680000, .i32⟩ : BufTy).Contents (Elt F) → (⟨S680000x1, .i32⟩ : BufTy).Contents (Elt F)),
    StableHlo.binary main_v15 main_v28 main_v29 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    StableHlo.binary main_v22 main_v29 main_v30 (mulf : (⟨S680000, .f32⟩ : BufTy).Contents (Elt F) → (⟨S680000, .f32⟩ : BufTy).Contents (Elt F) → (⟨S680000, .f32⟩ : BufTy).Contents (Elt F)) ]

/-- Operations 43 … 59: the product with the weight matrix, its rows gathered at the sources and scaled, summed per target. -/
abbrev sD : List (HloOp τ sig (Elt F)) :=
  [ StableHlo.binary main_arg0 main_arg2 main_v31 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.nullary main_c_7 (constantI S_ 32 0#32),
    StableHlo.unary main_c_7 main_v32 (broadcastInDim S680000 ![] bcast_S_S680000 : (⟨S_, .i32⟩ : BufTy).Contents (Elt F) → (⟨S680000, .i32⟩ : BufTy).Contents (Elt F)),
    StableHlo.binary main_v3 main_v32 main_v33 (cmpi .slt : (⟨S680000, .i32⟩ : BufTy).Contents (Elt F) → (⟨S680000, .i32⟩ : BufTy).Contents (Elt F) → (⟨S680000, .i1⟩ : BufTy).Contents (Elt F)),
    StableHlo.nullary main_c_8 (constantI S_ 32 40000#32),
    StableHlo.unary main_c_8 main_v34 (broadcastInDim S680000 ![] bcast_S_S680000 : (⟨S_, .i32⟩ : BufTy).Contents (Elt F) → (⟨S680000, .i32⟩ : BufTy).Contents (Elt F)),
    StableHlo.binary main_v3 main_v34 main_v35 (addi : (⟨S680000, .i32⟩ : BufTy).Contents (Elt F) → (⟨S680000, .i32⟩ : BufTy).Contents (Elt F) → (⟨S680000, .i32⟩ : BufTy).Contents (Elt F)),
    StableHlo.ternary main_v33 main_v35 main_v3 main_v36 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v36 main_v37 (broadcastInDim S680000x1 ![0] bcast_S680000_S680000x1_0 : (⟨S680000, .i32⟩ : BufTy).Contents (Elt F) → (⟨S680000x1, .i32⟩ : BufTy).Contents (Elt F)),
    StableHlo.binary main_v31 main_v37 main_v38 ((fun x i => Host.gather gather_S40000x128_S680000x1_S680000x128_1_0_n_n_0_1_1128 x i) : (⟨S40000x128, .f32⟩ : BufTy).Contents (Elt F) → (⟨S680000x1, .i32⟩ : BufTy).Contents (Elt F) → (⟨S680000x128, .f32⟩ : BufTy).Contents (Elt F)),
    StableHlo.unary main_v30 main_v39 (broadcastInDim S680000x1 ![0] bcast_S680000_S680000x1_0 : (⟨S680000, .f32⟩ : BufTy).Contents (Elt F) → (⟨S680000x1, .f32⟩ : BufTy).Contents (Elt F)),
    StableHlo.unary main_v39 main_v40 (broadcastInDim S680000x128 ![0, 1] bcast_S680000x1_S680000x128_0_1 : (⟨S680000x1, .f32⟩ : BufTy).Contents (Elt F) → (⟨S680000x128, .f32⟩ : BufTy).Contents (Elt F)),
    StableHlo.binary main_v38 main_v40 main_v41 (mulf : (⟨S680000x128, .f32⟩ : BufTy).Contents (Elt F) → (⟨S680000x128, .f32⟩ : BufTy).Contents (Elt F) → (⟨S680000x128, .f32⟩ : BufTy).Contents (Elt F)),
    StableHlo.nullary main_cst_9 (constant S_ .f32 0x00000000#32),
    StableHlo.unary main_cst_9 main_v42 (broadcastInDim S40000x128 ![] bcast_S_S40000x128 : (⟨S_, .f32⟩ : BufTy).Contents (Elt F) → (⟨S40000x128, .f32⟩ : BufTy).Contents (Elt F)),
    StableHlo.unary main_v6 main_v43 (broadcastInDim S680000x1 ![0] bcast_S680000_S680000x1_0 : (⟨S680000, .i32⟩ : BufTy).Contents (Elt F) → (⟨S680000x1, .i32⟩ : BufTy).Contents (Elt F)),
    StableHlo.ternary main_v42 main_v43 main_v41 main_v44 ((fun x i u => Host.scatterAdd scatter_S40000x128_S680000x1_S680000x128_1_0_0_1 x i u) : (⟨S40000x128, .f32⟩ : BufTy).Contents (Elt F) → (⟨S680000x1, .i32⟩ : BufTy).Contents (Elt F) → (⟨S680000x128, .f32⟩ : BufTy).Contents (Elt F) → (⟨S40000x128, .f32⟩ : BufTy).Contents (Elt F)) ]

/-- Operations 60 … 62: the bias along every row, added. -/
abbrev sE : List (HloOp τ sig (Elt F)) :=
  [ StableHlo.unary main_arg3 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S40000x128 ![0, 1] bcast_S1x128_S40000x128_0_1 : (⟨S1x128, .f32⟩ : BufTy).Contents (Elt F) → (⟨S40000x128, .f32⟩ : BufTy).Contents (Elt F)),
    StableHlo.binary main_v44 main_v46 main_v47 (addf : (⟨S40000x128, .f32⟩ : BufTy).Contents (Elt F) → (⟨S40000x128, .f32⟩ : BufTy).Contents (Elt F) → (⟨S40000x128, .f32⟩ : BufTy).Contents (Elt F)) ]

theorem ops0_split : (ops0 : List (HloOp τ sig (Elt F))) = sA ++ (sB ++ (sC ++ (sD ++ sE))) := rfl

/-! ### Stretch A -/

theorem sA_v3 (V : Valuation τ sig (Elt F)) :
    after sA V (Proc.devRef .tc main_v3) = Cert.Graph.src gfacts (V (Proc.devRef .tc main_arg1)) := by
  after_results
  rfl

theorem sA_v6 (V : Valuation τ sig (Elt F)) :
    after sA V (Proc.devRef .tc main_v6) = Cert.Graph.dst gfacts (V (Proc.devRef .tc main_arg1)) := by
  after_results
  rfl

theorem sA_arg0 (V : Valuation τ sig (Elt F)) : after sA V (Proc.devRef .tc main_arg0) = V (Proc.devRef .tc main_arg0) := by
  after_results
theorem sA_arg2 (V : Valuation τ sig (Elt F)) : after sA V (Proc.devRef .tc main_arg2) = V (Proc.devRef .tc main_arg2) := by
  after_results
theorem sA_arg3 (V : Valuation τ sig (Elt F)) : after sA V (Proc.devRef .tc main_arg3) = V (Proc.devRef .tc main_arg3) := by
  after_results_simp

/-! ### Stretch B -/

attribute [local irreducible] Host.scatterAdd Host.gather Host.powf Host.reduceAdd in
set_option maxRecDepth 8192 in
set_option maxHeartbeats 2000000 in
theorem sB_v15 (V : Valuation τ sig (Elt F)) (ei : IVec S2x640000 32)
    (h6 : V (Proc.devRef .tc main_v6) = Cert.Graph.dst gfacts ei) :
    after sB V (Proc.devRef .tc main_v15) = Cert.Graph.invSqrt (F := F) gfacts ei := by
  after_results_simp
  rw [h6]
  simp only [ofBuf_toBuf]
  rfl

theorem sB_v3 (V : Valuation τ sig (Elt F)) : after sB V (Proc.devRef .tc main_v3) = V (Proc.devRef .tc main_v3) := by
  after_results_simp
theorem sB_v6 (V : Valuation τ sig (Elt F)) : after sB V (Proc.devRef .tc main_v6) = V (Proc.devRef .tc main_v6) := by
  after_results_simp
theorem sB_arg0 (V : Valuation τ sig (Elt F)) : after sB V (Proc.devRef .tc main_arg0) = V (Proc.devRef .tc main_arg0) := by
  after_results_simp
theorem sB_arg2 (V : Valuation τ sig (Elt F)) : after sB V (Proc.devRef .tc main_arg2) = V (Proc.devRef .tc main_arg2) := by
  after_results_simp
theorem sB_arg3 (V : Valuation τ sig (Elt F)) : after sB V (Proc.devRef .tc main_arg3) = V (Proc.devRef .tc main_arg3) := by
  after_results_simp

/-! ### Stretch C -/

attribute [local irreducible] Host.scatterAdd Host.gather Host.powf Host.reduceAdd in
set_option maxRecDepth 8192 in
set_option maxHeartbeats 2000000 in
theorem sC_v30 (V : Valuation τ sig (Elt F)) (ei : IVec S2x640000 32)
    (h3 : V (Proc.devRef .tc main_v3) = Cert.Graph.src gfacts ei) (h6 : V (Proc.devRef .tc main_v6) = Cert.Graph.dst gfacts ei)
    (h15 : V (Proc.devRef .tc main_v15) = Cert.Graph.invSqrt (F := F) gfacts ei) :
    after sC V (Proc.devRef .tc main_v30) = Cert.Graph.weight (F := F) gfacts ei := by
  after_results_simp
  rw [h3, h6, h15]
  rfl

theorem sC_v3 (V : Valuation τ sig (Elt F)) : after sC V (Proc.devRef .tc main_v3) = V (Proc.devRef .tc main_v3) := by
  after_results_simp
theorem sC_v6 (V : Valuation τ sig (Elt F)) : after sC V (Proc.devRef .tc main_v6) = V (Proc.devRef .tc main_v6) := by
  after_results_simp
theorem sC_arg0 (V : Valuation τ sig (Elt F)) : after sC V (Proc.devRef .tc main_arg0) = V (Proc.devRef .tc main_arg0) := by
  after_results_simp
theorem sC_arg2 (V : Valuation τ sig (Elt F)) : after sC V (Proc.devRef .tc main_arg2) = V (Proc.devRef .tc main_arg2) := by
  after_results_simp
theorem sC_arg3 (V : Valuation τ sig (Elt F)) : after sC V (Proc.devRef .tc main_arg3) = V (Proc.devRef .tc main_arg3) := by
  after_results_simp

/-! ### Stretch D -/

attribute [local irreducible] Host.scatterAdd Host.gather Host.powf Host.reduceAdd in
set_option maxRecDepth 8192 in
set_option maxHeartbeats 2000000 in
theorem sD_v44 (V : Valuation τ sig (Elt F)) (ei : IVec S2x640000 32)
    (h3 : V (Proc.devRef .tc main_v3) = Cert.Graph.src gfacts ei) (h6 : V (Proc.devRef .tc main_v6) = Cert.Graph.dst gfacts ei)
    (h30 : V (Proc.devRef .tc main_v30) = Cert.Graph.weight (F := F) gfacts ei) :
    after sD V (Proc.devRef .tc main_v44)
      = Cert.Graph.aggregate (F := F) gfacts ei (Host.dotGeneral dot_S40000x128_S128x128_S40000x128_1_0_0_1_n_n none (V (Proc.devRef .tc main_arg0)) (V (Proc.devRef .tc main_arg2))) := by
  after_results_simp
  rw [h3, h6, h30]
  rfl

theorem sD_arg3 (V : Valuation τ sig (Elt F)) : after sD V (Proc.devRef .tc main_arg3) = V (Proc.devRef .tc main_arg3) := by
  after_results_simp

/-! ### Stretch E -/

theorem sE_v47 (V : Valuation τ sig (Elt F)) :
    after sE V (Proc.devRef .tc main_v47) = addf (V (Proc.devRef .tc main_v44)) (Cert.RefTail.rows (F := F) tfacts (V (Proc.devRef .tc main_arg3))) := by
  after_results_simp
  rfl

/-! ### The first window -/

/-- The first window leaves the aggregate of the product, with the bias added, in its last buffer. -/
theorem ops0_v47 (V : Valuation τ sig (Elt F)) :
    after ops0 V (Proc.devRef .tc main_v47)
      = addf (Cert.Graph.aggregate (F := F) gfacts (V (Proc.devRef .tc main_arg1))
            (Host.dotGeneral dot_S40000x128_S128x128_S40000x128_1_0_0_1_n_n none (V (Proc.devRef .tc main_arg0)) (V (Proc.devRef .tc main_arg2))))
          (Cert.RefTail.rows (F := F) tfacts (V (Proc.devRef .tc main_arg3))) := by
  have hA3 := sA_v3 V
  have hA6 := sA_v6 V
  have hB3 := (sB_v3 (after sA V)).trans hA3
  have hB6 := (sB_v6 (after sA V)).trans hA6
  have hB15 := sB_v15 (after sA V) _ hA6
  have hC3 := (sC_v3 (after sB (after sA V))).trans hB3
  have hC6 := (sC_v6 (after sB (after sA V))).trans hB6
  have hC30 := sC_v30 (after sB (after sA V)) _ hB3 hB6 hB15
  have hD44 := sD_v44 (after sC (after sB (after sA V))) _ hC3 hC6 hC30
  rw [ops0_split, after_append, after_append, after_append, after_append, sE_v47, hD44, sD_arg3,
    sC_arg0, sC_arg2, sC_arg3, sB_arg0, sB_arg2, sB_arg3, sA_arg0, sA_arg2, sA_arg3]

/-! ## The second window -/

attribute [local irreducible] Host.scatterAdd Host.gather Host.powf Host.reduceAdd Host.divf Host.rsqrt in
set_option maxRecDepth 8192 in
set_option maxHeartbeats 4000000 in
/-- The second window's result is the normalisation of the clipped input, scaled and shifted. -/
theorem ops1_v67 (V : Valuation τ sig (Elt F)) :
    after ops1 V (Proc.devRef .tc main_v67)
      = Cert.RefTail.normalise (F := F) tfacts (Cert.RefTail.relu (F := F) tfacts (V (Proc.devRef .tc main_v47)))
          (V (Proc.devRef .tc main_arg4)) (V (Proc.devRef .tc main_arg5)) := by
  after_results_simp
  simp only [ofBuf_toBuf]
  rfl

/-! ## The result -/

/-- The reference's result: the last stage applied to the aggregate of the product of the input with the weight
    matrix, the bias, the scale and the shift. -/
theorem result_eq (m : (ℓ : Loc nD τ sig) → Buf (Elt F) ℓ) (c : Dev nD) :
    after ops (fun b => m (c, b)) (Proc.devRef .tc main_v67)
      = Cert.RefTail.tail (F := F) tfacts
          (Cert.Graph.aggregate (F := F) gfacts (m ((c.tc : Thread nD τ).loc main_arg1))
            (Host.dotGeneral dot_S40000x128_S128x128_S40000x128_1_0_0_1_n_n none (m ((c.tc : Thread nD τ).loc main_arg0)) (m ((c.tc : Thread nD τ).loc main_arg2))))
          (m ((c.tc : Thread nD τ).loc main_arg3)) (m ((c.tc : Thread nD τ).loc main_arg4)) (m ((c.tc : Thread nD τ).loc main_arg5)) := by
  rw [show (ops : List (HloOp τ sig (Elt F))) = ops0 ++ ops1 from rfl, after_append, ops1_v67, ops0_v47,
    after_ops0_of_not_written _ (r := main_arg4) (by decide), after_ops0_of_not_written _ (r := main_arg5) (by decide)]
  rfl

end Cert.ReferenceIdeal.Run

end
-- ==== Proof.DotMm.lean ====
/-
  The reference's matrix product is the specification's.

  The reference's `dot_general` contracts the left operand's axis 1 with the right operand's axis 0 and has
  no batch axis: the plain product of a 40000 × 128 by a 128 × 128 matrix.  At the ideal values its entry
  `(r, j)` is `Σ_k x r k · w k j`.
-/
import proofs.«138294_j5583457485036_2_alg».proof.ReferenceIdeal
import proofs.«138294_j5583457485036_2_alg».proof.Proof.Gen.ReferenceIdeal
import proofs.«138294_j5583457485036_2_alg».proof.Proof.Spec
import Idealize.ShloMosaic.Lib.StackMember

namespace Cert.ReferenceIdeal

open Idealize.ShloMosaic Idealize.ShloMosaic.ValueIdx

/-- The printed dimension record is the plain product's: the same six lists. -/
theorem dot_eq_plain :
    dot_S40000x128_S128x128_S40000x128_1_0_0_1_n_n = DotDims.plain 40000 128 128 := rfl

/-- At the ideal values the reference's matrix product is `Spec.mm`. -/
theorem dot_eq_mm (x : FVec Ideal Cert.ReferenceIdeal.S40000x128 .f32) (w : FVec Ideal Cert.ReferenceIdeal.S128x128 .f32) :
    Host.dotGeneral (F := Ideal) Cert.ReferenceIdeal.dot_S40000x128_S128x128_S40000x128_1_0_0_1_n_n none x w
      = Cert.Spec.mm x w := by
  funext i
  obtain ⟨r, j, rfl⟩ : ∃ (r : Fin 40000) (j : Fin 128), i = ix2 r j := ⟨i 0, i 1, eq_ix2 i⟩
  rw [dot_eq_plain]
  exact StackMember.dotGeneral_plain_apply none x w r j

end Cert.ReferenceIdeal
-- ==== Proof.PreReal.lean ====
/-
  The precondition makes every float input real-valued.

  The precondition is the conjunction, over the five float arrays, of "every entry's absolute value is
  below +∞".  An extended real whose absolute value `max x (-x)` is below `⊤` is neither `⊤` nor `⊥`,
  so it is a real number.
-/
import proofs.«138294_j5583457485036_2_alg».proof.Pre_finite_inputs
import proofs.«138294_j5583457485036_2_alg».proof.Proof.Gen.Pre_finite_inputs
import Idealize.ShloMosaic.Lib.ReduceAll
import Idealize.ShloMosaic.Lib.ValueIdx
import Idealize.ShloMosaic.PureOps.Ideal

namespace Cert.Pre_finite_inputs

open Idealize.ShloMosaic

/-- The rank-0 shape has one index. -/
instance : Subsingleton S_.Idx := ⟨fun a b => funext fun d => d.elim0⟩

/-- The literal `0x7F800000` denotes `+∞`. -/
theorem inf_eq : Ideal.ofBits .f32 0x7F800000#32 = ⊤ := by
  simp [Ideal.ofBits, Ideal.ieee]

/-- An extended real whose absolute value compares below `+∞` is a real number. -/
theorem real_of_abs_lt (x : EReal)
    (h : Ideal.cmp .olt (max x (-x)) (Ideal.ofBits .f32 0x7F800000#32) = 1#1) : ∃ r : ℝ, x = (r : EReal) := by
  rw [inf_eq] at h
  induction x using EReal.rec with
  | bot => simp [Ideal.cmp] at h
  | coe r => exact ⟨r, rfl⟩
  | top => simp [Ideal.cmp] at h

/-- One array's conjunct: if "all entries have absolute value below `+∞`" holds, every entry is real. -/
theorem real_of_all {s : Shape} {axes : List (Fin s.rank)} (hb : S_.BroadcastsInDim s (![] : Fin 0 → Fin s.rank))
    (hr : s.ReducesTo axes S_) (hS : 0 < S_.numel) (x : FVec Ideal s .f32)
    (e : Host.reduce IntOp.andi
          (cmpf .olt (Host.absf x) (broadcastInDim s ![] hb (constant (F := Ideal) S_ .f32 0x7F800000#32)))
          (constantI S_ 1 1#1) hr hS ValueIdx.ix0 = 1#1) (i : s.Idx) : ∃ r : ℝ, x i = (r : EReal) := by
  have hi := Host.reduce_andi_all _ _ hr hS _ e i
  exact real_of_abs_lt (x i) hi

/-- Under the precondition the five float arrays are real-valued at every index. -/
theorem real_of_pre (x : FVec Ideal S40000x128 .f32) (ei : IVec S2x640000 32) (w : FVec Ideal S128x128 .f32)
    (b γ β : FVec Ideal S128 .f32)
    (h : Cert.Pre_finite_inputs.fn (F := Ideal) x ei w b γ β = fun _ => 1#1) :
    (∀ i, ∃ r : ℝ, x i = (r : EReal)) ∧ (∀ i, ∃ r : ℝ, w i = (r : EReal)) ∧ (∀ i, ∃ r : ℝ, b i = (r : EReal))
      ∧ (∀ i, ∃ r : ℝ, γ i = (r : EReal)) ∧ (∀ i, ∃ r : ℝ, β i = (r : EReal)) := by
  have h0 := congrFun h ValueIdx.ix0
  dsimp only [fn, fn_part1] at h0
  obtain ⟨h1, hβ⟩ := IntOp.andi_eq_one.1 h0
  obtain ⟨h2, hγ⟩ := IntOp.andi_eq_one.1 h1
  obtain ⟨h3, hb⟩ := IntOp.andi_eq_one.1 h2
  obtain ⟨hx, hw⟩ := IntOp.andi_eq_one.1 h3
  exact ⟨real_of_all _ _ _ x hx, real_of_all _ _ _ w hw, real_of_all _ _ _ b hb, real_of_all _ _ _ γ hγ,
    real_of_all _ _ _ β hβ⟩

end Cert.Pre_finite_inputs
-- ==== Proof.GraphReal.lean ====
/-
  The aggregate of a real-valued array is real-valued.

  At the extended reals a host scatter-add read at an element is the operand there plus a finite sum
  of updates, and a host gather read at a position is some entry of its operand.  A finite sum of
  reals is real, a product of reals is real, a real to a real power is real, and the three literals
  of the stage (0, 1, -1/2) are real.  So realness passes through the degree, its inverse square
  root, the edge weights, the messages and the aggregate in turn.
-/
import proofs.«138294_j5583457485036_2_alg».proof.Proof.Graph
import Idealize.ShloMosaic.PureOps.Ideal

noncomputable section

namespace Cert.Graph

open Idealize.ShloMosaic

/-- An extended real that is the coercion of a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- A real to a real power is real. -/
theorem IsReal.pow {a b : EReal} (ha : IsReal a) (hb : IsReal b) : IsReal (Ideal.pow a b) := by
  obtain ⟨x, rfl⟩ := ha
  obtain ⟨y, rfl⟩ := hb
  exact ⟨Real.rpow x y, rfl⟩

/-- A finite sum of reals is real. -/
theorem isReal_sum {ι : Type} (S : Finset ι) (f : ι → EReal) (hf : ∀ j ∈ S, IsReal (f j)) :
    IsReal (∑ j ∈ S, f j) :=
  Finset.sum_induction f IsReal (fun _ _ ha hb => ha.add hb) isReal_zero hf

/-- The three float literals of the stage are real: +0.0, 1.0 and -0.5. -/
theorem isReal_lit_zero : IsReal (Ideal.ofBits .f32 0x00000000#32) := by
  refine ⟨0, ?_⟩
  simp [Ideal.ofBits, Ideal.ieee]

theorem isReal_lit_one : IsReal (Ideal.ofBits .f32 0x3F800000#32) := by
  unfold IsReal
  simp only [Ideal.ofBits, Ideal.ieee]
  simp [-EReal.coe_mul, -EReal.coe_neg]

theorem isReal_lit_neg_half : IsReal (Ideal.ofBits .f32 0xBF000000#32) := by
  unfold IsReal
  simp only [Ideal.ofBits, Ideal.ieee]
  simp [-EReal.coe_mul, -EReal.coe_neg]

section general

variable {s si su t : Shape} {φ : FTy}

/-- The host scatter-add of real updates into a real operand is real at every element: the operand
    there plus a finite sum of updates. -/
theorem scatterAdd_isReal {w : Nat} (d : ScatterDims s si su) (x : FVec Ideal s φ) (idx : IVec si w)
    (upd : FVec Ideal su φ) (hx : ∀ i, IsReal (x i)) (hu : ∀ j, IsReal (upd j)) :
    ∀ i, IsReal (Host.scatterAdd d x idx upd i) := by
  have e : Host.scatterAdd d x idx upd = Ideal.hostScatterAdd d x idx upd := rfl
  intro i
  rw [e]
  unfold Ideal.hostScatterAdd
  exact (hx i).add (isReal_sum _ _ fun j _ => hu j)

/-- A host gather returns, at every position, some entry of its operand. -/
theorem gather_isReal {w : Nat} (d : GatherDims s si t) (x : FVec Ideal s φ) (idx : IVec si w)
    (hx : ∀ i, IsReal (x i)) : ∀ j, IsReal (Host.gather d x idx j) :=
  fun j => hx (d.operandIdx j idx)

/-- A broadcast reads, at every position, some entry of its operand. -/
theorem broadcast_isReal (dims : Fin s.rank → Fin t.rank) (h : s.BroadcastsInDim t dims) (x : FVec Ideal s φ)
    (hx : ∀ i, IsReal (x i)) : ∀ j, IsReal (broadcastInDim t dims h x j) :=
  fun _ => hx _

theorem mulf_isReal (x y : FVec Ideal s φ) (hx : ∀ i, IsReal (x i)) (hy : ∀ i, IsReal (y i)) :
    ∀ i, IsReal (mulf x y i) :=
  fun i => (hx i).mul (hy i)

theorem powf_isReal (x y : FVec Ideal s φ) (hx : ∀ i, IsReal (x i)) (hy : ∀ i, IsReal (y i)) :
    ∀ i, IsReal (Host.powf x y i) :=
  fun i => (hx i).pow (hy i)

theorem select_isReal (c : IVec s 1) (x y : FVec Ideal s φ) (hx : ∀ i, IsReal (x i)) (hy : ∀ i, IsReal (y i)) :
    ∀ i, IsReal (select c x y i) := by
  intro i
  show IsReal (Scalar.select (c i) (x i) (y i))
  unfold Scalar.select
  split
  · exact hx i
  · exact hy i

end general

variable (g : Facts)

theorem litZero_isReal (i : S_.Idx) : IsReal (constant (F := Ideal) S_ .f32 0x00000000#32 i) := isReal_lit_zero
theorem litOne_isReal (i : S_.Idx) : IsReal (constant (F := Ideal) S_ .f32 0x3F800000#32 i) := isReal_lit_one
theorem litNegHalf_isReal (i : S_.Idx) : IsReal (constant (F := Ideal) S_ .f32 0xBF000000#32 i) := isReal_lit_neg_half

/-- The degree of every node is real: zero plus a finite sum of ones. -/
theorem degree_isReal (ei : IVec S2x640000 32) : ∀ n, IsReal (degree (F := Ideal) g ei n) := by
  unfold degree
  exact scatterAdd_isReal _ _ _ _ (broadcast_isReal _ _ _ litZero_isReal) (broadcast_isReal _ _ _ litOne_isReal)

/-- The inverse square root of the degree is real: a real power of a real, or zero. -/
theorem invSqrt_isReal (ei : IVec S2x640000 32) : ∀ n, IsReal (invSqrt (F := Ideal) g ei n) := by
  unfold invSqrt
  exact select_isReal _ _ _
    (powf_isReal _ _ (degree_isReal g ei) (broadcast_isReal _ _ _ litNegHalf_isReal))
    (broadcast_isReal _ _ _ litZero_isReal)

/-- An edge's weight is real: a product of two gathered inverse square roots. -/
theorem weight_isReal (ei : IVec S2x640000 32) : ∀ e, IsReal (weight (F := Ideal) g ei e) := by
  unfold weight
  exact mulf_isReal _ _ (gather_isReal _ _ _ (invSqrt_isReal g ei)) (gather_isReal _ _ _ (invSqrt_isReal g ei))

/-- The messages of a real-valued array are real: a gathered entry times the edge's weight. -/
theorem messages_isReal (ei : IVec S2x640000 32) (h : FVec Ideal S40000x128 .f32) (hh : ∀ i, IsReal (h i)) :
    ∀ i, IsReal (messages (F := Ideal) g ei h i) := by
  unfold messages
  exact mulf_isReal _ _ (gather_isReal _ _ _ hh)
    (broadcast_isReal _ _ _ (broadcast_isReal _ _ _ (weight_isReal g ei)))

/-- The aggregate of a real-valued array is real-valued: zero plus a finite sum of messages. -/
theorem aggregate_real (ei : IVec S2x640000 32) (h : FVec Ideal S40000x128 .f32)
    (hh : ∀ i, ∃ x : ℝ, h i = (x : EReal)) :
    ∀ i, ∃ x : ℝ, aggregate (F := Ideal) g ei h i = (x : EReal) := by
  unfold aggregate
  exact scatterAdd_isReal _ _ _ _ (broadcast_isReal _ _ _ litZero_isReal) (messages_isReal g ei h hh)

end Cert.Graph

end
-- ==== Proof.Bridge.lean ====
/-
  Why the two programs' results are one function.

  Under the precondition the arguments are real-valued.  Then the product `x · W` is real-valued (finite
  sums of products of reals), the aggregate over the graph is real-valued (finite sums of real messages),
  and so is the activation `max (A + b) 0`.  For real-valued data the mean of the squares less the squared
  mean, clipped at zero, is the mean of the squared deviations; so the two normalised outputs, which
  differ in nothing else, are equal.
-/
import proofs.«138294_j5583457485036_2_alg».proof.Proof.Spec
import proofs.«138294_j5583457485036_2_alg».proof.Proof.GraphReal

noncomputable section

namespace Cert.Bridge

open Idealize.ShloMosaic Idealize.ShloMosaic.ValueIdx Cert.Spec Cert.Graph
open scoped BigOperators

/-- The product of real-valued arrays is real-valued. -/
theorem mm_real (x : Mat 40000 128) (w : Mat 128 128) (hx : ∀ i, ∃ r : ℝ, x i = (r : EReal)) (hw : ∀ i, ∃ r : ℝ, w i = (r : EReal)) :
    ∀ i, ∃ r : ℝ, mm x w i = (r : EReal) := fun i =>
  isReal_sum Finset.univ _ fun k _ => IsReal.mul (hx _) (hw _)

/-- The maximum of a real and zero is a real. -/
theorem max_zero_real {a : EReal} (ha : ∃ r : ℝ, a = (r : EReal)) : ∃ r : ℝ, max a 0 = (r : EReal) := by
  obtain ⟨r, rfl⟩ := ha
  exact ⟨max r 0, by rw [← EReal.coe_zero, ← Monotone.map_max EReal.coe_strictMono.monotone]⟩

/-- The activation of a real-valued aggregate and bias is real-valued. -/
theorem act_real (A : Mat 40000 128) (b : Vct 128) (hA : ∀ i, ∃ r : ℝ, A i = (r : EReal)) (hb : ∀ i, ∃ r : ℝ, b i = (r : EReal))
    (r : Fin 40000) (j : Fin 128) : ∃ x : ℝ, act A b (ix2 r j) = (x : EReal) := by
  rw [act_apply]
  exact max_zero_real (IsReal.add (hA _) (hb _))

/-- With real-valued data the normalised output is the same whichever variance is taken. -/
theorem out_centred_eq_clipped (A : Mat 40000 128) (b γ β : Vct 128)
    (hA : ∀ i, ∃ r : ℝ, A i = (r : EReal)) (hb : ∀ i, ∃ r : ℝ, b i = (r : EReal)) :
    out (act A b) (mean (act A b)) (varCentred (act A b)) γ β
      = out (act A b) (mean (act A b)) (varClipped (act A b)) γ β := by
  have h : varCentred (act A b) = varClipped (act A b) :=
    funext fun j => (var_eq (act A b) j fun r => act_real A b hA hb r j).symm
  rw [h]

end Cert.Bridge

end
-- ==== Proof.lean ====
/-
  The certificate of a graph convolution with batch normalisation: a kernel program of three grid
  regions (the product `x · W`; the column sums of the activation and of its squares; the normalisation)
  among host stretches that gather and scatter over the graph, against a reference that does everything
  on the host.

  At the extended reals both programs compute, from the aggregate `A` of `x · W` over the graph,
  `((v - μ) · rsqrt (var + ε)) · γ + β` with `v = max (A + b) 0` and `μ` the column mean.  They differ in the
  variance: the kernel takes `max (Σ v² / N - μ²) 0`, the reference `Σ (v - μ)² / N`.  Under the precondition
  the arguments are real-valued, hence so are `x · W`, its aggregate (finite sums of real messages) and
  `v`, and for real-valued data the two variances are one number.

  The frames: the kernel programs' are the generated ones; the reference's is its run with the result
  dropped.  No rewrite was applied by the idealisation, so there is nothing to preserve.
-/
import proofs.«138294_j5583457485036_2_alg».proof.Defs
import proofs.«138294_j5583457485036_2_alg».proof.Proof.Gen.Kernel
import proofs.«138294_j5583457485036_2_alg».proof.Proof.Gen.Kernel.Skeleton
import proofs.«138294_j5583457485036_2_alg».proof.Proof.Gen.Kernel.Launch
import proofs.«138294_j5583457485036_2_alg».proof.Proof.Gen.Kernel.Points
import proofs.«138294_j5583457485036_2_alg».proof.Proof.Gen.Kernel.Frame
import proofs.«138294_j5583457485036_2_alg».proof.Proof.Gen.KernelIdeal
import proofs.«138294_j5583457485036_2_alg».proof.Proof.Gen.KernelIdeal.Skeleton
import proofs.«138294_j5583457485036_2_alg».proof.Proof.Gen.KernelIdeal.Launch
import proofs.«138294_j5583457485036_2_alg».proof.Proof.Gen.KernelIdeal.Points
import proofs.«138294_j5583457485036_2_alg».proof.Proof.Gen.KernelIdeal.Frame
import proofs.«138294_j5583457485036_2_alg».proof.Proof.Gen.ReferenceIdeal
import proofs.«138294_j5583457485036_2_alg».proof.Proof.Gen.Pre_finite_inputs
import proofs.«138294_j5583457485036_2_alg».proof.Proof.KRun
import proofs.«138294_j5583457485036_2_alg».proof.Proof.KHost
import proofs.«138294_j5583457485036_2_alg».proof.Proof.RefRun
import proofs.«138294_j5583457485036_2_alg».proof.Proof.RefRead
import proofs.«138294_j5583457485036_2_alg».proof.Proof.RefTail
import proofs.«138294_j5583457485036_2_alg».proof.Proof.DotMm
import proofs.«138294_j5583457485036_2_alg».proof.Proof.PreReal
import proofs.«138294_j5583457485036_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Run.run (F := Ideal) m ρ)

/-- From arguments that agree and satisfy the precondition both programs end with the same result array. -/
theorem algebraic : Cert.algebraic_KernelIdeal_ReferenceIdeal := by
  intro m ρ m' ρ' hpre hagree
  refine ⟨fun c => Cert.KernelIdeal.Gen.W8 m ρ c (Proc.devRef .tc Cert.KernelIdeal.main_v62),
    Cert.KernelIdeal.Run.run (F := Ideal) m ρ, ?_⟩
  refine (θ_run Cert.ReferenceIdeal.defs _ _).mono (fun r h c => ⟨(h c).1.trans ?_, (h c).2⟩)
    (Cert.ReferenceIdeal.Run.run (F := Ideal) m' ρ')
  obtain ⟨hx, hw, hb, -, -⟩ := Cert.Pre_finite_inputs.real_of_pre _ _ _ _ _ _ (hpre c)
  beta_reduce
  rw [Cert.ReferenceIdeal.Run.result_eq, Cert.KernelIdeal.Host.result,
    (hagree c).1, (hagree c).2.1, (hagree c).2.2.1, (hagree c).2.2.2.1, (hagree c).2.2.2.2.1, (hagree c).2.2.2.2.2,
    Cert.ReferenceIdeal.dot_eq_mm, Cert.RefTail.tail_eq]
  exact Cert.Bridge.out_centred_eq_clipped _ _ _ _
    (Cert.Graph.aggregate_real _ _ _ (Cert.Bridge.mm_real _ _ hx hw)) hb

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
